-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3 : Shape := ⟨2, ![1024, 3]⟩
abbrev S3x3 : Shape := ⟨2, ![3, 3]⟩
abbrev S_ : Shape := ⟨0, ![]⟩

class Facts : Prop where
  bcast_S_S1024x3 : S_.BroadcastsInDim S1024x3 (![] : Fin 0 → Fin S1024x3.rank)
  reducesTo_S1024x3_S_d0_1 : S1024x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_

variable [Facts]

def fn {F : FTy → Type} [FloatOps F] (main_arg0 : FVec F S1024x3 .f32) (main_arg1 : FVec F S3x3 .f32) : IVec S_ 1 :=
  let main_v0 : FVec F S1024x3 .f32 := Host.absf main_arg0
  let main_cst : FVec F S_ .f32 := constant S_ .f32 0x7F800000#32
  let main_v1 : FVec F S1024x3 .f32 := broadcastInDim S1024x3 ![] bcast_S_S1024x3 main_cst
  let main_v2 : IVec S1024x3 1 := cmpf .olt main_v0 main_v1
  let main_c : IVec S_ 1 := constantI S_ 1 1#1
  let main_v3 : IVec S_ 1 := (fun x v => Host.reduce IntOp.andi x v reducesTo_S1024x3_S_d0_1 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  main_v8
-- ==== Kernel.lean ====
abbrev S1024x3 : Shape := ⟨2, ![1024, 3]⟩
abbrev S3x3 : Shape := ⟨2, ![3, 3]⟩
abbrev S27x3 : Shape := ⟨2, ![27, 3]⟩
abbrev S3x1024 : Shape := ⟨2, ![3, 1024]⟩
abbrev S1024x1024x81 : Shape := ⟨3, ![1024, 1024, 81]⟩
abbrev S128x3 : Shape := ⟨2, ![128, 3]⟩
abbrev S3x128 : Shape := ⟨2, ![3, 128]⟩
abbrev S128x128x81 : Shape := ⟨3, ![128, 128, 81]⟩
abbrev S128x128 : Shape := ⟨2, ![128, 128]⟩
abbrev S128x1 : Shape := ⟨2, ![128, 1]⟩
abbrev S1x128 : Shape := ⟨2, ![1, 128]⟩
abbrev S1x1 : Shape := ⟨2, ![1, 1]⟩
abbrev S128x128x1 : Shape := ⟨3, ![128, 128, 1]⟩
abbrev S1024x1024x27x3 : Shape := ⟨4, ![1024, 1024, 27, 3]⟩

abbrev nBuf : Space → Nat
  | .hbm => 8
  | .vmem => 7
  | .smem => 0
  | _ => 0

abbrev bufTy : (tb : Table) → Fin (tcTables nBuf tb) → BufTy
  | .hbm, ⟨0, _⟩ => ⟨S1024x3, .f32⟩
  | .hbm, ⟨1, _⟩ => ⟨S3x3, .f32⟩
  | .hbm, ⟨2, _⟩ => ⟨S27x3, .f32⟩
  | .hbm, ⟨3, _⟩ => ⟨S1024x3, .f32⟩
  | .hbm, ⟨4, _⟩ => ⟨S3x1024, .f32⟩
  | .hbm, ⟨5, _⟩ => ⟨S27x3, .f32⟩
  | .hbm, ⟨6, _⟩ => ⟨S1024x1024x81, .f32⟩
  | .hbm, ⟨7, _⟩ => ⟨S1024x1024x27x3, .f32⟩
  | .local _ .vmem, ⟨0, _⟩ => ⟨S128x3, .f32⟩
  | .local _ .vmem, ⟨1, _⟩ => ⟨S128x3, .f32⟩
  | .local _ .vmem, ⟨2, _⟩ => ⟨S3x128, .f32⟩
  | .local _ .vmem, ⟨3, _⟩ => ⟨S3x128, .f32⟩
  | .local _ .vmem, ⟨4, _⟩ => ⟨S27x3, .f32⟩
  | .local _ .vmem, ⟨5, _⟩ => ⟨S128x128x81, .f32⟩
  | .local _ .vmem, ⟨6, _⟩ => ⟨S128x128x81, .f32⟩
  | _, _ => ⟨S1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S27x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x128x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S1024x3_S3x1024_1_0 : S1024x3.Transposes [1, 0] S3x1024
  iota_S128x128_d0_w32 : S128x128.Iotas .tc 32 [0]
  iota_S128x128_d1_w32 : S128x128.Iotas .tc 32 [1]
  inb_S27x3_S27x3_0_0 : ∀ a, (![0, 0] : Fin 2 → Nat) a + S27x3.size a ≤ S27x3.size a
  h_S27x3 : 0 < S27x3.numel
  shapeCasts_S27x3_S27x3 : S27x3.ShapeCasts S27x3
  inb_S128x3_S128x1_0_0 : ∀ a, (![0, 0] : Fin 2 → Nat) a + S128x1.size a ≤ S128x3.size a
  h_S128x1 : 0 < S128x1.numel
  shapeCasts_S128x1_S128x1 : S128x1.ShapeCasts S128x1
  inb_S3x128_S1x128_0_0 : ∀ a, (![0, 0] : Fin 2 → Nat) a + S1x128.size a ≤ S3x128.size a
  h_S1x128 : 0 < S1x128.numel
  shapeCasts_S1x128_S1x128 : S1x128.ShapeCasts S1x128
  broadcasts_S1x128_S128x128 : S1x128.Broadcasts S128x128
  broadcasts_S128x1_S128x128 : S128x1.Broadcasts S128x128
  inb_S128x3_S128x1_0_1 : ∀ a, (![0, 1] : Fin 2 → Nat) a + S128x1.size a ≤ S128x3.size a
  inb_S3x128_S1x128_1_0 : ∀ a, (![1, 0] : Fin 2 → Nat) a + S1x128.size a ≤ S3x128.size a
  inb_S128x3_S128x1_0_2 : ∀ a, (![0, 2] : Fin 2 → Nat) a + S128x1.size a ≤ S128x3.size a
  inb_S3x128_S1x128_2_0 : ∀ a, (![2, 0] : Fin 2 → Nat) a + S1x128.size a ≤ S3x128.size a
  slices_S27x3_o0_0_S1x1 : S27x3.Slices ![0, 0] S1x1
  inpos_S1x1_p0_0 : ∀ a, (![0, 0] : Fin 2 → Nat) a < S1x1.size a
  slices_S27x3_o0_1_S1x1 : S27x3.Slices ![0, 1] S1x1
  slices_S27x3_o0_2_S1x1 : S27x3.Slices ![0, 2] S1x1
  shapeCasts_S128x128_S128x128x1 : S128x128.ShapeCasts S128x128x1
  inb_S128x128x81_S128x128x1_0_0_0 : ∀ a, (![0, 0, 0] : Fin 3 → Nat) a + S128x128x1.size a ≤ S128x128x81.size a
  h_S128x128x1 : 0 < S128x128x1.numel
  inb_S128x128x81_S128x128x1_0_0_1 : ∀ a, (![0, 0, 1] : Fin 3 → Nat) a + S128x128x1.size a ≤ S128x128x81.size a
  inb_S128x128x81_S128x128x1_0_0_2 : ∀ a, (![0, 0, 2] : Fin 3 → Nat) a + S128x128x1.size a ≤ S128x128x81.size a
  slices_S27x3_o1_0_S1x1 : S27x3.Slices ![1, 0] S1x1
  slices_S27x3_o1_1_S1x1 : S27x3.Slices ![1, 1] S1x1
  slices_S27x3_o1_2_S1x1 : S27x3.Slices ![1, 2] S1x1
  inb_S128x128x81_S128x128x1_0_0_3 : ∀ a, (![0, 0, 3] : Fin 3 → Nat) a + S128x128x1.size a ≤ S128x128x81.size a
  inb_S128x128x81_S128x128x1_0_0_4 : ∀ a, (![0, 0, 4] : Fin 3 → Nat) a + S128x128x1.size a ≤ S128x128x81.size a
  inb_S128x128x81_S128x128x1_0_0_5 : ∀ a, (![0, 0, 5] : Fin 3 → Nat) a + S128x128x1.size a ≤ S128x128x81.size a
  slices_S27x3_o2_0_S1x1 : S27x3.Slices ![2, 0] S1x1
  slices_S27x3_o2_1_S1x1 : S27x3.Slices ![2, 1] S1x1
  slices_S27x3_o2_2_S1x1 : S27x3.Slices ![2, 2] S1x1
  inb_S128x128x81_S128x128x1_0_0_6 : ∀ a, (![0, 0, 6] : Fin 3 → Nat) a + S128x128x1.size a ≤ S128x128x81.size a
  inb_S128x128x81_S128x128x1_0_0_7 : ∀ a, (![0, 0, 7] : Fin 3 → Nat) a + S128x128x1.size a ≤ S128x128x81.size a
  inb_S128x128x81_S128x128x1_0_0_8 : ∀ a, (![0, 0, 8] : Fin 3 → Nat) a + S128x128x1.size a ≤ S128x128x81.size a
  slices_S27x3_o3_0_S1x1 : S27x3.Slices ![3, 0] S1x1
  slices_S27x3_o3_1_S1x1 : S27x3.Slices ![3, 1] S1x1
  slices_S27x3_o3_2_S1x1 : S27x3.Slices ![3, 2] S1x1
  inb_S128x128x81_S128x128x1_0_0_9 : ∀ a, (![0, 0, 9] : Fin 3 → Nat) a + S128x128x1.size a ≤ S128x128x81.size a
  inb_S128x128x81_S128x128x1_0_0_10 : ∀ a, (![0, 0, 10] : Fin 3 → Nat) a + S128x128x1.size a ≤ S128x128x81.size a
  inb_S128x128x81_S128x128x1_0_0_11 : ∀ a, (![0, 0, 11] : Fin 3 → Nat) a + S128x128x1.size a ≤ S128x128x81.size a
  slices_S27x3_o4_0_S1x1 : S27x3.Slices ![4, 0] S1x1
  slices_S27x3_o4_1_S1x1 : S27x3.Slices ![4, 1] S1x1
  slices_S27x3_o4_2_S1x1 : S27x3.Slices ![4, 2] S1x1
  inb_S128x128x81_S128x128x1_0_0_12 : ∀ a, (![0, 0, 12] : Fin 3 → Nat) a + S128x128x1.size a ≤ S128x128x81.size a
  inb_S128x128x81_S128x128x1_0_0_13 : ∀ a, (![0, 0, 13] : Fin 3 → Nat) a + S128x128x1.size a ≤ S128x128x81.size a
  inb_S128x128x81_S128x128x1_0_0_14 : ∀ a, (![0, 0, 14] : Fin 3 → Nat) a + S128x128x1.size a ≤ S128x128x81.size a
  slices_S27x3_o5_0_S1x1 : S27x3.Slices ![5, 0] S1x1
  slices_S27x3_o5_1_S1x1 : S27x3.Slices ![5, 1] S1x1
  slices_S27x3_o5_2_S1x1 : S27x3.Slices ![5, 2] S1x1
  inb_S128x128x81_S128x128x1_0_0_15 : ∀ a, (![0, 0, 15] : Fin 3 → Nat) a + S128x128x1.size a ≤ S128x128x81.size a
  inb_S128x128x81_S128x128x1_0_0_16 : ∀ a, (![0, 0, 16] : Fin 3 → Nat) a + S128x128x1.size a ≤ S128x128x81.size a
  inb_S128x128x81_S128x128x1_0_0_17 : ∀ a, (![0, 0, 17] : Fin 3 → Nat) a + S128x128x1.size a ≤ S128x128x81.size a
  slices_S27x3_o6_0_S1x1 : S27x3.Slices ![6, 0] S1x1
  slices_S27x3_o6_1_S1x1 : S27x3.Slices ![6, 1] S1x1
  slices_S27x3_o6_2_S1x1 : S27x3.Slices ![6, 2] S1x1
  inb_S128x128x81_S128x128x1_0_0_18 : ∀ a, (![0, 0, 18] : Fin 3 → Nat) a + S128x128x1.size a ≤ S128x128x81.size a
  inb_S128x128x81_S128x128x1_0_0_19 : ∀ a, (![0, 0, 19] : Fin 3 → Nat) a + S128x128x1.size a ≤ S128x128x81.size a
  inb_S128x128x81_S128x128x1_0_0_20 : ∀ a, (![0, 0, 20] : Fin 3 → Nat) a + S128x128x1.size a ≤ S128x128x81.size a
  slices_S27x3_o7_0_S1x1 : S27x3.Slices ![7, 0] S1x1
  slices_S27x3_o7_1_S1x1 : S27x3.Slices ![7, 1] S1x1
  slices_S27x3_o7_2_S1x1 : S27x3.Slices ![7, 2] S1x1
  inb_S128x128x81_S128x128x1_0_0_21 : ∀ a, (![0, 0, 21] : Fin 3 → Nat) a + S128x128x1.size a ≤ S128x128x81.size a
  inb_S128x128x81_S128x128x1_0_0_22 : ∀ a, (![0, 0, 22] : Fin 3 → Nat) a + S128x128x1.size a ≤ S128x128x81.size a
  inb_S128x128x81_S128x128x1_0_0_23 : ∀ a, (![0, 0, 23] : Fin 3 → Nat) a + S128x128x1.size a ≤ S128x128x81.size a
  slices_S27x3_o8_0_S1x1 : S27x3.Slices ![8, 0] S1x1
  slices_S27x3_o8_1_S1x1 : S27x3.Slices ![8, 1] S1x1
  slices_S27x3_o8_2_S1x1 : S27x3.Slices ![8, 2] S1x1
  inb_S128x128x81_S128x128x1_0_0_24 : ∀ a, (![0, 0, 24] : Fin 3 → Nat) a + S128x128x1.size a ≤ S128x128x81.size a
  inb_S128x128x81_S128x128x1_0_0_25 : ∀ a, (![0, 0, 25] : Fin 3 → Nat) a + S128x128x1.size a ≤ S128x128x81.size a
  inb_S128x128x81_S128x128x1_0_0_26 : ∀ a, (![0, 0, 26] : Fin 3 → Nat) a + S128x128x1.size a ≤ S128x128x81.size a
  slices_S27x3_o9_0_S1x1 : S27x3.Slices ![9, 0] S1x1
  slices_S27x3_o9_1_S1x1 : S27x3.Slices ![9, 1] S1x1
  slices_S27x3_o9_2_S1x1 : S27x3.Slices ![9, 2] S1x1
  inb_S128x128x81_S128x128x1_0_0_27 : ∀ a, (![0, 0, 27] : Fin 3 → Nat) a + S128x128x1.size a ≤ S128x128x81.size a
  inb_S128x128x81_S128x128x1_0_0_28 : ∀ a, (![0, 0, 28] : Fin 3 → Nat) a + S128x128x1.size a ≤ S128x128x81.size a
  inb_S128x128x81_S128x128x1_0_0_29 : ∀ a, (![0, 0, 29] : Fin 3 → Nat) a + S128x128x1.size a ≤ S128x128x81.size a
  slices_S27x3_o10_0_S1x1 : S27x3.Slices ![10, 0] S1x1
  slices_S27x3_o10_1_S1x1 : S27x3.Slices ![10, 1] S1x1
  slices_S27x3_o10_2_S1x1 : S27x3.Slices ![10, 2] S1x1
  inb_S128x128x81_S128x128x1_0_0_30 : ∀ a, (![0, 0, 30] : Fin 3 → Nat) a + S128x128x1.size a ≤ S128x128x81.size a
  inb_S128x128x81_S128x128x1_0_0_31 : ∀ a, (![0, 0, 31] : Fin 3 → Nat) a + S128x128x1.size a ≤ S128x128x81.size a
  inb_S128x128x81_S128x128x1_0_0_32 : ∀ a, (![0, 0, 32] : Fin 3 → Nat) a + S128x128x1.size a ≤ S128x128x81.size a
  slices_S27x3_o11_0_S1x1 : S27x3.Slices ![11, 0] S1x1
  slices_S27x3_o11_1_S1x1 : S27x3.Slices ![11, 1] S1x1
  slices_S27x3_o11_2_S1x1 : S27x3.Slices ![11, 2] S1x1
  inb_S128x128x81_S128x128x1_0_0_33 : ∀ a, (![0, 0, 33] : Fin 3 → Nat) a + S128x128x1.size a ≤ S128x128x81.size a
  inb_S128x128x81_S128x128x1_0_0_34 : ∀ a, (![0, 0, 34] : Fin 3 → Nat) a + S128x128x1.size a ≤ S128x128x81.size a
  inb_S128x128x81_S128x128x1_0_0_35 : ∀ a, (![0, 0, 35] : Fin 3 → Nat) a + S128x128x1.size a ≤ S128x128x81.size a
  slices_S27x3_o12_0_S1x1 : S27x3.Slices ![12, 0] S1x1
  slices_S27x3_o12_1_S1x1 : S27x3.Slices ![12, 1] S1x1
  slices_S27x3_o12_2_S1x1 : S27x3.Slices ![12, 2] S1x1
  inb_S128x128x81_S128x128x1_0_0_36 : ∀ a, (![0, 0, 36] : Fin 3 → Nat) a + S128x128x1.size a ≤ S128x128x81.size a
  inb_S128x128x81_S128x128x1_0_0_37 : ∀ a, (![0, 0, 37] : Fin 3 → Nat) a + S128x128x1.size a ≤ S128x128x81.size a
  inb_S128x128x81_S128x128x1_0_0_38 : ∀ a, (![0, 0, 38] : Fin 3 → Nat) a + S128x128x1.size a ≤ S128x128x81.size a
  slices_S27x3_o13_0_S1x1 : S27x3.Slices ![13, 0] S1x1
  slices_S27x3_o13_1_S1x1 : S27x3.Slices ![13, 1] S1x1
  slices_S27x3_o13_2_S1x1 : S27x3.Slices ![13, 2] S1x1
  inb_S128x128x81_S128x128x1_0_0_39 : ∀ a, (![0, 0, 39] : Fin 3 → Nat) a + S128x128x1.size a ≤ S128x128x81.size a
  inb_S128x128x81_S128x128x1_0_0_40 : ∀ a, (![0, 0, 40] : Fin 3 → Nat) a + S128x128x1.size a ≤ S128x128x81.size a
  inb_S128x128x81_S128x128x1_0_0_41 : ∀ a, (![0, 0, 41] : Fin 3 → Nat) a + S128x128x1.size a ≤ S128x128x81.size a
  slices_S27x3_o14_0_S1x1 : S27x3.Slices ![14, 0] S1x1
  slices_S27x3_o14_1_S1x1 : S27x3.Slices ![14, 1] S1x1
  slices_S27x3_o14_2_S1x1 : S27x3.Slices ![14, 2] S1x1
  inb_S128x128x81_S128x128x1_0_0_42 : ∀ a, (![0, 0, 42] : Fin 3 → Nat) a + S128x128x1.size a ≤ S128x128x81.size a
  inb_S128x128x81_S128x128x1_0_0_43 : ∀ a, (![0, 0, 43] : Fin 3 → Nat) a + S128x128x1.size a ≤ S128x128x81.size a
  inb_S128x128x81_S128x128x1_0_0_44 : ∀ a, (![0, 0, 44] : Fin 3 → Nat) a + S128x128x1.size a ≤ S128x128x81.size a
  slices_S27x3_o15_0_S1x1 : S27x3.Slices ![15, 0] S1x1
  slices_S27x3_o15_1_S1x1 : S27x3.Slices ![15, 1] S1x1
  slices_S27x3_o15_2_S1x1 : S27x3.Slices ![15, 2] S1x1
  inb_S128x128x81_S128x128x1_0_0_45 : ∀ a, (![0, 0, 45] : Fin 3 → Nat) a + S128x128x1.size a ≤ S128x128x81.size a
  inb_S128x128x81_S128x128x1_0_0_46 : ∀ a, (![0, 0, 46] : Fin 3 → Nat) a + S128x128x1.size a ≤ S128x128x81.size a
  inb_S128x128x81_S128x128x1_0_0_47 : ∀ a, (![0, 0, 47] : Fin 3 → Nat) a + S128x128x1.size a ≤ S128x128x81.size a
  slices_S27x3_o16_0_S1x1 : S27x3.Slices ![16, 0] S1x1
  slices_S27x3_o16_1_S1x1 : S27x3.Slices ![16, 1] S1x1
  slices_S27x3_o16_2_S1x1 : S27x3.Slices ![16, 2] S1x1
  inb_S128x128x81_S128x128x1_0_0_48 : ∀ a, (![0, 0, 48] : Fin 3 → Nat) a + S128x128x1.size a ≤ S128x128x81.size a
  inb_S128x128x81_S128x128x1_0_0_49 : ∀ a, (![0, 0, 49] : Fin 3 → Nat) a + S128x128x1.size a ≤ S128x128x81.size a
  inb_S128x128x81_S128x128x1_0_0_50 : ∀ a, (![0, 0, 50] : Fin 3 → Nat) a + S128x128x1.size a ≤ S128x128x81.size a
  slices_S27x3_o17_0_S1x1 : S27x3.Slices ![17, 0] S1x1
  slices_S27x3_o17_1_S1x1 : S27x3.Slices ![17, 1] S1x1
  slices_S27x3_o17_2_S1x1 : S27x3.Slices ![17, 2] S1x1
  inb_S128x128x81_S128x128x1_0_0_51 : ∀ a, (![0, 0, 51] : Fin 3 → Nat) a + S128x128x1.size a ≤ S128x128x81.size a
  inb_S128x128x81_S128x128x1_0_0_52 : ∀ a, (![0, 0, 52] : Fin 3 → Nat) a + S128x128x1.size a ≤ S128x128x81.size a
  inb_S128x128x81_S128x128x1_0_0_53 : ∀ a, (![0, 0, 53] : Fin 3 → Nat) a + S128x128x1.size a ≤ S128x128x81.size a
  slices_S27x3_o18_0_S1x1 : S27x3.Slices ![18, 0] S1x1
  slices_S27x3_o18_1_S1x1 : S27x3.Slices ![18, 1] S1x1
  slices_S27x3_o18_2_S1x1 : S27x3.Slices ![18, 2] S1x1
  inb_S128x128x81_S128x128x1_0_0_54 : ∀ a, (![0, 0, 54] : Fin 3 → Nat) a + S128x128x1.size a ≤ S128x128x81.size a
  inb_S128x128x81_S128x128x1_0_0_55 : ∀ a, (![0, 0, 55] : Fin 3 → Nat) a + S128x128x1.size a ≤ S128x128x81.size a
  inb_S128x128x81_S128x128x1_0_0_56 : ∀ a, (![0, 0, 56] : Fin 3 → Nat) a + S128x128x1.size a ≤ S128x128x81.size a
  slices_S27x3_o19_0_S1x1 : S27x3.Slices ![19, 0] S1x1
  slices_S27x3_o19_1_S1x1 : S27x3.Slices ![19, 1] S1x1
  slices_S27x3_o19_2_S1x1 : S27x3.Slices ![19, 2] S1x1
  inb_S128x128x81_S128x128x1_0_0_57 : ∀ a, (![0, 0, 57] : Fin 3 → Nat) a + S128x128x1.size a ≤ S128x128x81.size a
  inb_S128x128x81_S128x128x1_0_0_58 : ∀ a, (![0, 0, 58] : Fin 3 → Nat) a + S128x128x1.size a ≤ S128x128x81.size a
  inb_S128x128x81_S128x128x1_0_0_59 : ∀ a, (![0, 0, 59] : Fin 3 → Nat) a + S128x128x1.size a ≤ S128x128x81.size a
  slices_S27x3_o20_0_S1x1 : S27x3.Slices ![20, 0] S1x1
  slices_S27x3_o20_1_S1x1 : S27x3.Slices ![20, 1] S1x1
  slices_S27x3_o20_2_S1x1 : S27x3.Slices ![20, 2] S1x1
  inb_S128x128x81_S128x128x1_0_0_60 : ∀ a, (![0, 0, 60] : Fin 3 → Nat) a + S128x128x1.size a ≤ S128x128x81.size a
  inb_S128x128x81_S128x128x1_0_0_61 : ∀ a, (![0, 0, 61] : Fin 3 → Nat) a + S128x128x1.size a ≤ S128x128x81.size a
  inb_S128x128x81_S128x128x1_0_0_62 : ∀ a, (![0, 0, 62] : Fin 3 → Nat) a + S128x128x1.size a ≤ S128x128x81.size a
  slices_S27x3_o21_0_S1x1 : S27x3.Slices ![21, 0] S1x1
  slices_S27x3_o21_1_S1x1 : S27x3.Slices ![21, 1] S1x1
  slices_S27x3_o21_2_S1x1 : S27x3.Slices ![21, 2] S1x1
  inb_S128x128x81_S128x128x1_0_0_63 : ∀ a, (![0, 0, 63] : Fin 3 → Nat) a + S128x128x1.size a ≤ S128x128x81.size a
  inb_S128x128x81_S128x128x1_0_0_64 : ∀ a, (![0, 0, 64] : Fin 3 → Nat) a + S128x128x1.size a ≤ S128x128x81.size a
  inb_S128x128x81_S128x128x1_0_0_65 : ∀ a, (![0, 0, 65] : Fin 3 → Nat) a + S128x128x1.size a ≤ S128x128x81.size a
  slices_S27x3_o22_0_S1x1 : S27x3.Slices ![22, 0] S1x1
  slices_S27x3_o22_1_S1x1 : S27x3.Slices ![22, 1] S1x1
  slices_S27x3_o22_2_S1x1 : S27x3.Slices ![22, 2] S1x1
  inb_S128x128x81_S128x128x1_0_0_66 : ∀ a, (![0, 0, 66] : Fin 3 → Nat) a + S128x128x1.size a ≤ S128x128x81.size a
  inb_S128x128x81_S128x128x1_0_0_67 : ∀ a, (![0, 0, 67] : Fin 3 → Nat) a + S128x128x1.size a ≤ S128x128x81.size a
  inb_S128x128x81_S128x128x1_0_0_68 : ∀ a, (![0, 0, 68] : Fin 3 → Nat) a + S128x128x1.size a ≤ S128x128x81.size a
  slices_S27x3_o23_0_S1x1 : S27x3.Slices ![23, 0] S1x1
  slices_S27x3_o23_1_S1x1 : S27x3.Slices ![23, 1] S1x1
  slices_S27x3_o23_2_S1x1 : S27x3.Slices ![23, 2] S1x1
  inb_S128x128x81_S128x128x1_0_0_69 : ∀ a, (![0, 0, 69] : Fin 3 → Nat) a + S128x128x1.size a ≤ S128x128x81.size a
  inb_S128x128x81_S128x128x1_0_0_70 : ∀ a, (![0, 0, 70] : Fin 3 → Nat) a + S128x128x1.size a ≤ S128x128x81.size a
  inb_S128x128x81_S128x128x1_0_0_71 : ∀ a, (![0, 0, 71] : Fin 3 → Nat) a + S128x128x1.size a ≤ S128x128x81.size a
  slices_S27x3_o24_0_S1x1 : S27x3.Slices ![24, 0] S1x1
  slices_S27x3_o24_1_S1x1 : S27x3.Slices ![24, 1] S1x1
  slices_S27x3_o24_2_S1x1 : S27x3.Slices ![24, 2] S1x1
  inb_S128x128x81_S128x128x1_0_0_72 : ∀ a, (![0, 0, 72] : Fin 3 → Nat) a + S128x128x1.size a ≤ S128x128x81.size a
  inb_S128x128x81_S128x128x1_0_0_73 : ∀ a, (![0, 0, 73] : Fin 3 → Nat) a + S128x128x1.size a ≤ S128x128x81.size a
  inb_S128x128x81_S128x128x1_0_0_74 : ∀ a, (![0, 0, 74] : Fin 3 → Nat) a + S128x128x1.size a ≤ S128x128x81.size a
  slices_S27x3_o25_0_S1x1 : S27x3.Slices ![25, 0] S1x1
  slices_S27x3_o25_1_S1x1 : S27x3.Slices ![25, 1] S1x1
  slices_S27x3_o25_2_S1x1 : S27x3.Slices ![25, 2] S1x1
  inb_S128x128x81_S128x128x1_0_0_75 : ∀ a, (![0, 0, 75] : Fin 3 → Nat) a + S128x128x1.size a ≤ S128x128x81.size a
  inb_S128x128x81_S128x128x1_0_0_76 : ∀ a, (![0, 0, 76] : Fin 3 → Nat) a + S128x128x1.size a ≤ S128x128x81.size a
  inb_S128x128x81_S128x128x1_0_0_77 : ∀ a, (![0, 0, 77] : Fin 3 → Nat) a + S128x128x1.size a ≤ S128x128x81.size a
  slices_S27x3_o26_0_S1x1 : S27x3.Slices ![26, 0] S1x1
  slices_S27x3_o26_1_S1x1 : S27x3.Slices ![26, 1] S1x1
  slices_S27x3_o26_2_S1x1 : S27x3.Slices ![26, 2] S1x1
  inb_S128x128x81_S128x128x1_0_0_78 : ∀ a, (![0, 0, 78] : Fin 3 → Nat) a + S128x128x1.size a ≤ S128x128x81.size a
  inb_S128x128x81_S128x128x1_0_0_79 : ∀ a, (![0, 0, 79] : Fin 3 → Nat) a + S128x128x1.size a ≤ S128x128x81.size a
  inb_S128x128x81_S128x128x1_0_0_80 : ∀ a, (![0, 0, 80] : Fin 3 → Nat) a + S128x128x1.size a ≤ S128x128x81.size a
  shapeCasts_S1024x1024x81_S1024x1024x27x3 : S1024x1024x81.ShapeCasts S1024x1024x27x3
  dot_S1024x3_S3x3_S1024x3_1_0_0_1_n_n_wf : DotDims.WF S1024x3 S3x3 S1024x3 [1] [0] [0] [1] [] []
  dot_S27x3_S3x3_S27x3_1_0_0_1_n_n_wf : DotDims.WF S27x3 S3x3 S27x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3.size a ≤ S1024x3.size a
  hwx0_0 : ∀ i : grid0.Coords, EltTy.bits .f32 = 32 ∨ (Rect.block (s := S1024x3) S128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x1024.size a
  hwx0_1 : ∀ i : grid0.Coords, EltTy.bits .f32 = 32 ∨ (Rect.block (s := S3x1024) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S27x3.size a ≤ S27x3.size a
  hwx0_2 : ∀ i : grid0.Coords, EltTy.bits .f32 = 32 ∨ (Rect.block (s := S27x3) S27x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x81.size a ≤ S1024x1024x81.size a
  hwx0_3 : ∀ i : grid0.Coords, EltTy.bits .f32 = 32 ∨ (Rect.block (s := S1024x1024x81) S128x128x81.size (cc0_transform_3 i) (hinb0_3 i)).WholeWords (EltTy.packing .f32)

variable [Facts₀]

def dot_S1024x3_S3x3_S1024x3_1_0_0_1_n_n : DotDims S1024x3 S3x3 S1024x3 where
  lhsContracting := [1]
  rhsContracting := [0]
  lhsNonContracting := [0]
  rhsNonContracting := [1]
  lhsBatch := []
  rhsBatch := []
  wf := dot_S1024x3_S3x3_S1024x3_1_0_0_1_n_n_wf
def dot_S27x3_S3x3_S27x3_1_0_0_1_n_n : DotDims S27x3 S3x3 S27x3 where
  lhsContracting := [1]
  rhsContracting := [0]
  lhsNonContracting := [0]
  rhsNonContracting := [1]
  lhsBatch := []
  rhsBatch := []
  wf := dot_S27x3_S3x3_S27x3_1_0_0_1_n_n_wf

abbrev win0_0 : Pipeline.Window sig grid0 :=
  Pipeline.Window.ofSpec (Memref.whole main_v0) S128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S27x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128x81.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x3 : Shape := ⟨2, ![1024, 3]⟩
abbrev S3x3 : Shape := ⟨2, ![3, 3]⟩
abbrev S27x3 : Shape := ⟨2, ![27, 3]⟩
abbrev S27 : Shape := ⟨1, ![27]⟩
abbrev S1x1024x1x3 : Shape := ⟨4, ![1, 1024, 1, 3]⟩
abbrev S1x1x27x3 : Shape := ⟨4, ![1, 1, 27, 3]⟩
abbrev S1x1024x27x3 : Shape := ⟨4, ![1, 1024, 27, 3]⟩
abbrev S1024x1x1x3 : Shape := ⟨4, ![1024, 1, 1, 3]⟩
abbrev S1024x1024x27x3 : Shape := ⟨4, ![1024, 1024, 27, 3]⟩
abbrev S_ : Shape := ⟨0, ![]⟩
abbrev S1024x1024x27 : Shape := ⟨3, ![1024, 1024, 27]⟩
abbrev S1024x1024 : Shape := ⟨2, ![1024, 1024]⟩
abbrev S1024x1024x1 : Shape := ⟨3, ![1024, 1024, 1]⟩
abbrev S1x1x27 : Shape := ⟨3, ![1, 1, 27]⟩
abbrev S1024x1024x27x1 : Shape := ⟨4, ![1024, 1024, 27, 1]⟩

abbrev nBuf : Space → Nat
  | .hbm => 39
  | .vmem => 0
  | .smem => 0
  | _ => 0

abbrev bufTy : (tb : Table) → Fin (tcTables nBuf tb) → BufTy
  | .hbm, ⟨0, _⟩ => ⟨S1024x3, .f32⟩
  | .hbm, ⟨1, _⟩ => ⟨S3x3, .f32⟩
  | .hbm, ⟨2, _⟩ => ⟨S27x3, .f32⟩
  | .hbm, ⟨3, _⟩ => ⟨S27, .i1⟩
  | .hbm, ⟨4, _⟩ => ⟨S1024x3, .f32⟩
  | .hbm, ⟨5, _⟩ => ⟨S27x3, .f32⟩
  | .hbm, ⟨6, _⟩ => ⟨S1x1024x1x3, .f32⟩
  | .hbm, ⟨7, _⟩ => ⟨S1x1x27x3, .f32⟩
  | .hbm, ⟨8, _⟩ => ⟨S1x1024x27x3, .f32⟩
  | .hbm, ⟨9, _⟩ => ⟨S1x1024x27x3, .f32⟩
  | .hbm, ⟨10, _⟩ => ⟨S1x1024x27x3, .f32⟩
  | .hbm, ⟨11, _⟩ => ⟨S1024x1x1x3, .f32⟩
  | .hbm, ⟨12, _⟩ => ⟨S1024x1024x27x3, .f32⟩
  | .hbm, ⟨13, _⟩ => ⟨S1024x1024x27x3, .f32⟩
  | .hbm, ⟨14, _⟩ => ⟨S1024x1024x27x3, .f32⟩
  | .hbm, ⟨15, _⟩ => ⟨S1024x1024x27x3, .f32⟩
  | .hbm, ⟨16, _⟩ => ⟨S_, .f32⟩
  | .hbm, ⟨17, _⟩ => ⟨S1024x1024x27, .f32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i32⟩
  | .hbm, ⟨23, _⟩ => ⟨S1024x1024, .i1⟩
  | .hbm, ⟨24, _⟩ => ⟨S1024x1024x1, .i1⟩
  | .hbm, ⟨25, _⟩ => ⟨S1x1x27, .i1⟩
  | .hbm, ⟨26, _⟩ => ⟨S1024x1024x27, .i1⟩
  | .hbm, ⟨27, _⟩ => ⟨S1024x1024x27, .i1⟩
  | .hbm, ⟨28, _⟩ => ⟨S1024x1024x27, .i1⟩
  | .hbm, ⟨29, _⟩ => ⟨S_, .f32⟩
  | .hbm, ⟨30, _⟩ => ⟨S1024x1024x27, .f32⟩
  | .hbm, ⟨31, _⟩ => ⟨S1024x1024x27, .i1⟩
  | .hbm, ⟨32, _⟩ => ⟨S1024x1024x27, .i1⟩
  | .hbm, ⟨33, _⟩ => ⟨S1024x1024x27, .i1⟩
  | .hbm, ⟨34, _⟩ => ⟨S1024x1024x27x1, .i1⟩
  | .hbm, ⟨35, _⟩ => ⟨S_, .f32⟩
  | .hbm, ⟨36, _⟩ => ⟨S1024x1024x27x3, .i1⟩
  | .hbm, ⟨37, _⟩ => ⟨S1024x1024x27x3, .f32⟩
  | .hbm, ⟨38, _⟩ => ⟨S1024x1024x27x3, .f32⟩
  | _, _ => ⟨S1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S1024x3_S1x1024x1x3_1_3 : S1024x3.BroadcastsInDim S1x1024x1x3 (![1, 3] : Fin 2 → Fin S1x1024x1x3.rank)
  bcast_S27x3_S1x1x27x3_2_3 : S27x3.BroadcastsInDim S1x1x27x3 (![2, 3] : Fin 2 → Fin S1x1x27x3.rank)
  bcast_S1x1024x1x3_S1x1024x27x3_0_1_2_3 : S1x1024x1x3.BroadcastsInDim S1x1024x27x3 (![0, 1, 2, 3] : Fin 4 → Fin S1x1024x27x3.rank)
  bcast_S1x1x27x3_S1x1024x27x3_0_1_2_3 : S1x1x27x3.BroadcastsInDim S1x1024x27x3 (![0, 1, 2, 3] : Fin 4 → Fin S1x1024x27x3.rank)
  bcast_S1024x3_S1024x1x1x3_0_3 : S1024x3.BroadcastsInDim S1024x1x1x3 (![0, 3] : Fin 2 → Fin S1024x1x1x3.rank)
  bcast_S1x1024x27x3_S1024x1024x27x3_0_1_2_3 : S1x1024x27x3.BroadcastsInDim S1024x1024x27x3 (![0, 1, 2, 3] : Fin 4 → Fin S1024x1024x27x3.rank)
  bcast_S1024x1x1x3_S1024x1024x27x3_0_1_2_3 : S1024x1x1x3.BroadcastsInDim S1024x1024x27x3 (![0, 1, 2, 3] : Fin 4 → Fin S1024x1024x27x3.rank)
  reducesTo_S1024x1024x27x3_S1024x1024x27_d3 : S1024x1024x27x3.ReducesTo [3] S1024x1024x27
  h_S_ : 0 < S_.numel
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S27_S1x1x27_2 : S27.BroadcastsInDim S1x1x27 (![2] : Fin 1 → Fin S1x1x27.rank)
  bcast_S1024x1024x1_S1024x1024x27_0_1_2 : S1024x1024x1.BroadcastsInDim S1024x1024x27 (![0, 1, 2] : Fin 3 → Fin S1024x1024x27.rank)
  bcast_S1x1x27_S1024x1024x27_0_1_2 : S1x1x27.BroadcastsInDim S1024x1024x27 (![0, 1, 2] : Fin 3 → Fin S1024x1024x27.rank)
  bcast_S_S1024x1024x27 : S_.BroadcastsInDim S1024x1024x27 (![] : Fin 0 → Fin S1024x1024x27.rank)
  bcast_S1024x1024x27_S1024x1024x27x1_0_1_2 : S1024x1024x27.BroadcastsInDim S1024x1024x27x1 (![0, 1, 2] : Fin 3 → Fin S1024x1024x27x1.rank)
  bcast_S1024x1024x27x1_S1024x1024x27x3_0_1_2_3 : S1024x1024x27x1.BroadcastsInDim S1024x1024x27x3 (![0, 1, 2, 3] : Fin 4 → Fin S1024x1024x27x3.rank)
  bcast_S_S1024x1024x27x3 : S_.BroadcastsInDim S1024x1024x27x3 (![] : Fin 0 → Fin S1024x1024x27x3.rank)
  dot_S1024x3_S3x3_S1024x3_1_0_0_1_n_n_wf : DotDims.WF S1024x3 S3x3 S1024x3 [1] [0] [0] [1] [] []
  dot_S27x3_S3x3_S27x3_1_0_0_1_n_n_wf : DotDims.WF S27x3 S3x3 S27x3 [1] [0] [0] [1] [] []

variable [Facts₀]

def dot_S1024x3_S3x3_S1024x3_1_0_0_1_n_n : DotDims S1024x3 S3x3 S1024x3 where
  lhsContracting := [1]
  rhsContracting := [0]
  lhsNonContracting := [0]
  rhsNonContracting := [1]
  lhsBatch := []
  rhsBatch := []
  wf := dot_S1024x3_S3x3_S1024x3_1_0_0_1_n_n_wf
def dot_S27x3_S3x3_S27x3_1_0_0_1_n_n : DotDims S27x3 S3x3 S27x3 where
  lhsContracting := [1]
  rhsContracting := [0]
  lhsNonContracting := [0]
  rhsNonContracting := [1]
  lhsBatch := []
  rhsBatch := []
  wf := dot_S27x3_S3x3_S27x3_1_0_0_1_n_n_wf

class Facts : Prop extends Facts₀ where

variable [Facts]
-- ==== Proof.Spec.lean ====
/-
  The masked displacement tensor of a periodic radius graph, as one function of the atoms' cartesian positions
  `C` (1024 atoms, 3 components) and the 27 image translations `T` (27 images, 3 components), on the extended reals.

  For atoms `i`, `j` and image `s` the displacement is `d(i,j,s) = C j + T s - C i`, componentwise; its squared length is
  the sum of the three squared components; `(i, j, s)` is an EDGE when that squared length is below the squared cutoff and
  the pair is not an atom with itself in the unshifted cell (image 13 of the 27, the zero translation). The tensor holds
  the displacement at the edges and a fill value elsewhere.

  Both programs compute this function. They differ in how a component is grouped — `(C j - C i) + T s` against
  `(C j + T s) - C i` — and in how the three squares are added; on the extended reals addition is commutative and
  associative and `x - y` is `x + -y`, so both regroupings hold at every value, infinite ones included, and no
  finiteness of the inputs is needed.
-/
import Idealize.ShloMosaic.PureOps.Ideal
import Idealize.ShloMosaic.Lib.ValueIdx

noncomputable section

namespace Cert.RadiusGraph

open Idealize.ShloMosaic Idealize.ShloMosaic.ValueIdx

/-- Cartesian positions: atom, component. -/
abbrev Cart := (⟨2, ![1024, 3]⟩ : Shape).Idx → EReal
/-- Image translations: image, component. -/
abbrev Shifts := (⟨2, ![27, 3]⟩ : Shape).Idx → EReal

/-- Component `c` of the displacement from atom `i` to image `s` of atom `j`. -/
def disp (C : Cart) (T : Shifts) (i j : Fin 1024) (s : Fin 27) (c : Fin 3) : EReal :=
  C (ix2 j c) + T (ix2 s c) - C (ix2 i c)

/-- Its squared length. -/
def dist2 (C : Cart) (T : Shifts) (i j : Fin 1024) (s : Fin 27) : EReal :=
  ∑ c : Fin 3, disp C T i j s c * disp C T i j s c

/-- `(i, j, s)` is an edge for the squared cutoff `r2`: closer than the cutoff, and not an atom paired with itself in
    the unshifted cell. -/
def IsEdge (r2 : EReal) (C : Cart) (T : Shifts) (i j : Fin 1024) (s : Fin 27) : Prop :=
  dist2 C T i j s < r2 ∧ ¬(i = j ∧ s = 13)

open Classical in
/-- One entry of the tensor: the displacement component at an edge, the fill value `z` elsewhere. -/
def cell (r2 z : EReal) (C : Cart) (T : Shifts) (i j : Fin 1024) (s : Fin 27) (c : Fin 3) : EReal :=
  if IsEdge r2 C T i j s then disp C T i j s c else z

/-- The tensor, indexed (atom, atom, image, component). -/
def G (r2 z : EReal) (C : Cart) (T : Shifts) : (⟨4, ![1024, 1024, 27, 3]⟩ : Shape).Idx → EReal :=
  fun y => cell r2 z C T (y 0) (y 1) (y 2) (y 3)

theorem G_ix4 (r2 z : EReal) (C : Cart) (T : Shifts) (i j : Fin 1024) (s : Fin 27) (c : Fin 3) :
    G r2 z C T (ix4 i j s c) = cell r2 z C T i j s c := rfl

/-- A component grouped as (difference of positions) + translation is the displacement. -/
theorem disp_of_diff_add (C : Cart) (T : Shifts) (i j : Fin 1024) (s : Fin 27) (c : Fin 3) :
    (C (ix2 j c) - C (ix2 i c)) + T (ix2 s c) = disp C T i j s c := by
  unfold disp
  rw [sub_eq_add_neg, sub_eq_add_neg, add_right_comm]

/-- The squared length as the three squares added left to right. -/
theorem dist2_eq_three (C : Cart) (T : Shifts) (i j : Fin 1024) (s : Fin 27) :
    dist2 C T i j s
      = disp C T i j s 0 * disp C T i j s 0 + disp C T i j s 1 * disp C T i j s 1 + disp C T i j s 2 * disp C T i j s 2 := by
  unfold dist2
  rw [Fin.sum_univ_three]

/-- A select on the bit of a decided proposition is the conditional. -/
theorem select_ofBool {α : Type} (p : Prop) [Decidable p] (a b : α) :
    Scalar.select (BitVec.ofBool (decide p)) a b = if p then a else b := by
  unfold Scalar.select
  by_cases h : p
  · simp [h]
  · simp [h]

/-- The float comparison "less than" at the ideal instance is the bit of `x < y`. -/
theorem cmp_olt (x y : EReal) : Ideal.cmp .olt x y = BitVec.ofBool (decide (x < y)) := rfl

end Cert.RadiusGraph

end
-- ==== Proof.BodyCells.lean ====
/-
  One grid point of the kernel writes, for each of the 27 images `s` and each component `c`, a 128 × 128 × 1 slab of its
  output block: at (a, b) the component `c` of `(x1[·, b] - x0[a, ·]) + x2[s, ·]` — `x0` the point's 128 rows of the
  positions, `x1` its 128 columns of the transposed positions, `x2` the 27 translations — where the squared length of that
  vector is below the squared cutoff, and a fill value elsewhere; for the unshifted image (13) the entries where the row's
  atom is the column's atom are filled too.

  This module states that slab ONCE, as a term `piece s c` in the kernel's own vector operations, generic in the image
  and the component (`pieceSelf c` for the unshifted image, whose mask also reads the grid position), and reads it at an
  index on the extended reals. The 81 stored values of the printed body are instances of these two terms.
-/
import proofs.«129882_j47519518163698_1_alg».proof.Proof.Gen.KernelIdeal.Skeleton
import proofs.«129882_j47519518163698_1_alg».proof.Proof.Spec
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen

variable {F : FTy → Type} [FloatOps F]

/-! ## The slab as a term -/

/-- Column `c` of the 128 × 3 rows block fits the block. -/
theorem col_inb (c : Fin 3) : ∀ a, (![0, c.val] : Fin 2 → Nat) a + S128x1.size a ≤ S128x3.size a := by
  intro a
  match a with
  | ⟨0, _⟩ => exact Nat.le_refl _
  | ⟨1, _⟩ => show c.val + 1 ≤ 3; omega

/-- Row `c` of the 3 × 128 columns block fits the block. -/
theorem row_inb (c : Fin 3) : ∀ a, (![c.val, 0] : Fin 2 → Nat) a + S1x128.size a ≤ S3x128.size a := by
  intro a
  match a with
  | ⟨0, _⟩ => show c.val + 1 ≤ 3; omega
  | ⟨1, _⟩ => exact Nat.le_refl _

/-- The single entry (s, c) of the translations is a slice of them. -/
theorem entry_slices (s : Fin 27) (c : Fin 3) : S27x3.Slices ![s.val, c.val] S1x1 :=
  ⟨rfl, fun a => by
    match a with
    | ⟨0, _⟩ => show s.val + 1 ≤ 27; omega
    | ⟨1, _⟩ => show c.val + 1 ≤ 3; omega⟩

/-- Component `c` of column-atom minus row-atom, over the 128 × 128 tile. -/
def base (x0 : Vec F S128x3 .f32) (x1 : Vec F S3x128 .f32) (c : Fin 3) : FVec F S128x128 .f32 :=
  subf
    (broadcastTo S128x128 (shapeCast S1x128 (View.ld x1 (Rect.unit (s := S3x128) ![c.val, 0] S1x128.size (row_inb c))) shapeCasts_S1x128_S1x128)
      broadcasts_S1x128_S128x128)
    (broadcastTo S128x128 (shapeCast S128x1 (View.ld x0 (Rect.unit (s := S128x3) ![0, c.val] S128x1.size (col_inb c))) shapeCasts_S128x1_S128x1)
      broadcasts_S128x1_S128x128)

/-- Component `c` of translation `s`, as the scalar the body extracts. -/
def shiftAt (x2 : Vec F S27x3 .f32) (s : Fin 27) (c : Fin 3) : F .f32 :=
  extractAt ![0, 0]
    (extractStridedSlice S1x1 ![s.val, c.val]
      (shapeCast S27x3 (View.ld x2 (Rect.unit (s := S27x3) ![0, 0] S27x3.size inb_S27x3_S27x3_0_0)) shapeCasts_S27x3_S27x3)
      (entry_slices s c))
    inpos_S1x1_p0_0

/-- Component `c` of the displacement to image `s`, over the tile. -/
def comp (x0 : Vec F S128x3 .f32) (x1 : Vec F S3x128 .f32) (x2 : Vec F S27x3 .f32) (s : Fin 27) (c : Fin 3) : FVec F S128x128 .f32 :=
  addf (base x0 x1 c) (broadcast S128x128 (shiftAt x2 s c))

/-- The bit "closer than the cutoff" for image `s`, over the tile. -/
def near (x0 : Vec F S128x3 .f32) (x1 : Vec F S3x128 .f32) (x2 : Vec F S27x3 .f32) (s : Fin 27) : IVec S128x128 1 :=
  cmpf .olt
    (addf (addf (mulf (comp x0 x1 x2 s 0) (comp x0 x1 x2 s 0)) (mulf (comp x0 x1 x2 s 1) (comp x0 x1 x2 s 1)))
      (mulf (comp x0 x1 x2 s 2) (comp x0 x1 x2 s 2)))
    (broadcast S128x128 (Scalar.ofBits .f32 0x41C80000#32))

/-- The fill value, over the tile. -/
def fill : FVec F S128x128 .f32 := broadcast S128x128 (Scalar.ofBits .f32 0x00000000#32)

/-- The slab the body stores for image `s` (not the unshifted one) and component `c`. -/
def piece (x0 : Vec F S128x3 .f32) (x1 : Vec F S3x128 .f32) (x2 : Vec F S27x3 .f32) (s : Fin 27) (c : Fin 3) : FVec F S128x128x1 .f32 :=
  shapeCast S128x128x1 (select (near x0 x1 x2 s) (comp x0 x1 x2 s c) (fill (F := F))) shapeCasts_S128x128_S128x128x1

/-- The slab for the unshifted image: the mask also excludes the entries whose row atom is the column atom, which the
    body reads off the grid position `i`. -/
def pieceSelf (i : grid0.Coords) (x0 : Vec F S128x3 .f32) (x1 : Vec F S3x128 .f32) (x2 : Vec F S27x3 .f32) (c : Fin 3) : FVec F S128x128x1 .f32 :=
  shapeCast S128x128x1
    (select (andi (near x0 x1 x2 13) (xori (k0_pay3 i) (constantI S128x128 1 1#1))) (comp x0 x1 x2 13 c) (fill (F := F)))
    shapeCasts_S128x128_S128x128x1

end Cert.KernelIdeal.Body

end
-- ==== Proof.BodyRead.lean ====
/-
  The slabs of one grid point read at an index, on the extended reals.

  At (a, b) of the 128 × 128 tile, component `c` of the displacement to image `s` is `(x1[c, b] - x0[a, c]) + x2[s, c]`;
  the slab for (s, c) holds it where the three squared components add up to less than the squared cutoff, and the fill
  value elsewhere; for the unshifted image the entry is also filled when the row's atom is the column's: the body compares
  the two 32-bit words `128·i₀ + a` and `128·i₁ + b` computed from the grid position (i₀, i₁), and, all four numbers being
  far below 2³², the words are equal exactly when the numbers are.
-/
import proofs.«129882_j47519518163698_1_alg».proof.Proof.BodyCells

noncomputable section

namespace Cert.KernelIdeal.Body

open Idealize.ShloMosaic Idealize.ShloMosaic.ValueIdx Cert.KernelIdeal Cert.KernelIdeal.Gen

/-! ## Layouts read at an index -/

section Layouts
variable {α : Type} {F : FTy → Type} [FloatOps F]

/-- A tile viewed as a slab of thickness one reads (a, b, 0) at (a, b). -/
theorem cast_slab (v : S128x128.Idx → α) (h : S128x128.ShapeCasts S128x128x1) (a b : Fin 128) :
    shapeCast S128x128x1 v h (ix3 a b (0 : Fin 1)) = v (ix2 a b) := by
  refine shapeCast_apply v h _ _ ?_
  rw [Shape.rowMajor_val_two, Shape.rowMajor_val_three]
  show a.val * 128 + b.val = (a.val * 128 + b.val) * 1 + 0
  omega

/-- A row repeated down the tile reads (a, b) at (0, b). -/
theorem row_bcast (v : S1x128.Idx → α) (h : S1x128.Broadcasts S128x128) (a b : Fin 128) :
    broadcastTo S128x128 v h (ix2 a b) = v (ix2 (0 : Fin 1) b) := by
  refine broadcastTo_apply v h _ _ ?_
  intro d
  match d with
  | ⟨0, _⟩ => rfl
  | ⟨1, _⟩ => rfl

/-- A column repeated across the tile reads (a, b) at (a, 0). -/
theorem col_bcast (v : S128x1.Idx → α) (h : S128x1.Broadcasts S128x128) (a b : Fin 128) :
    broadcastTo S128x128 v h (ix2 a b) = v (ix2 a (0 : Fin 1)) := by
  refine broadcastTo_apply v h _ _ ?_
  intro d
  match d with
  | ⟨0, _⟩ => rfl
  | ⟨1, _⟩ => rfl

/-- Column `c` of the rows block, loaded, reads (a, 0) at (a, c). -/
theorem ld_col (x0 : Vec F S128x3 .f32) (c : Fin 3) (a : Fin 128) :
    View.ld x0 (Rect.unit (s := S128x3) ![0, c.val] S128x1.size (col_inb c)) (ix2 a (0 : Fin 1)) = x0 (ix2 a c) := by
  show x0 _ = x0 _
  refine congrArg x0 (funext fun d => Fin.ext ?_)
  match d with
  | ⟨0, _⟩ => show 0 + 1 * a.val = a.val; omega
  | ⟨1, _⟩ => show c.val + 1 * 0 = c.val; omega

/-- Row `c` of the columns block, loaded, reads (0, b) at (c, b). -/
theorem ld_row (x1 : Vec F S3x128 .f32) (c : Fin 3) (b : Fin 128) :
    View.ld x1 (Rect.unit (s := S3x128) ![c.val, 0] S1x128.size (row_inb c)) (ix2 (0 : Fin 1) b) = x1 (ix2 c b) := by
  show x1 _ = x1 _
  refine congrArg x1 (funext fun d => Fin.ext ?_)
  match d with
  | ⟨0, _⟩ => show c.val + 1 * 0 = c.val; omega
  | ⟨1, _⟩ => show 0 + 1 * b.val = b.val; omega

/-- Row `c` of the columns block, loaded and viewed in its own shape, reads (0, b) at (c, b). -/
theorem cast_ld_row (x1 : Vec F S3x128 .f32) (c : Fin 3) (b : Fin 128) :
    shapeCast S1x128 (View.ld x1 (Rect.unit (s := S3x128) ![c.val, 0] S1x128.size (row_inb c))) shapeCasts_S1x128_S1x128
      (ix2 (0 : Fin 1) b) = x1 (ix2 c b) :=
  (congrFun (shapeCast_self (s := S1x128) _ shapeCasts_S1x128_S1x128) _).trans (ld_row x1 c b)

/-- Column `c` of the rows block, loaded and viewed in its own shape, reads (a, 0) at (a, c). -/
theorem cast_ld_col (x0 : Vec F S128x3 .f32) (c : Fin 3) (a : Fin 128) :
    shapeCast S128x1 (View.ld x0 (Rect.unit (s := S128x3) ![0, c.val] S128x1.size (col_inb c))) shapeCasts_S128x1_S128x1
      (ix2 a (0 : Fin 1)) = x0 (ix2 a c) :=
  (congrFun (shapeCast_self (s := S128x1) _ shapeCasts_S128x1_S128x1) _).trans (ld_col x0 c a)

/-- The scalar the body extracts for (s, c) is that entry of the translations. -/
theorem shiftAt_eq (x2 : Vec F S27x3 .f32) (s : Fin 27) (c : Fin 3) : shiftAt x2 s c = x2 (ix2 s c) := by
  have e : shapeCast S27x3 (View.ld x2 (Rect.unit (s := S27x3) ![0, 0] S27x3.size inb_S27x3_S27x3_0_0)) shapeCasts_S27x3_S27x3 = x2 :=
    (shapeCast_self (s := S27x3) _ shapeCasts_S27x3_S27x3).trans
      (View.ld_unit_zero (S := S27x3) (funext fun d => by match d with | ⟨0, _⟩ => rfl | ⟨1, _⟩ => rfl) _ x2)
  unfold shiftAt
  rw [e]
  show x2 _ = x2 _
  refine congrArg x2 (funext fun d => Fin.ext ?_)
  match d with
  | ⟨0, _⟩ => show s.val + 0 = s.val; omega
  | ⟨1, _⟩ => show c.val + 0 = c.val; omega

end Layouts

/-! ## The displacement, the cutoff bit and the slab at an index -/

/-- Component `c` of the displacement to image `s` from the tile's row atom `a` to its column atom `b`. -/
def bcomp (x0 : Vec Ideal S128x3 .f32) (x1 : Vec Ideal S3x128 .f32) (x2 : Vec Ideal S27x3 .f32) (a b : Fin 128) (s : Fin 27)
    (c : Fin 3) : EReal :=
  ((x1 (ix2 c b) : EReal) - (x0 (ix2 a c) : EReal)) + (x2 (ix2 s c) : EReal)

/-- Its squared length, the three squares added left to right. -/
def bdist2 (x0 : Vec Ideal S128x3 .f32) (x1 : Vec Ideal S3x128 .f32) (x2 : Vec Ideal S27x3 .f32) (a b : Fin 128) (s : Fin 27) : EReal :=
  bcomp x0 x1 x2 a b s 0 * bcomp x0 x1 x2 a b s 0 + bcomp x0 x1 x2 a b s 1 * bcomp x0 x1 x2 a b s 1
    + bcomp x0 x1 x2 a b s 2 * bcomp x0 x1 x2 a b s 2

open Classical in
/-- One entry of the block a grid point `i` writes: the displacement component where the pair is closer than the cutoff
    and is not an atom with itself in the unshifted cell, the fill value elsewhere. -/
def bcell (i : grid0.Coords) (x0 : Vec Ideal S128x3 .f32) (x1 : Vec Ideal S3x128 .f32) (x2 : Vec Ideal S27x3 .f32) (a b : Fin 128)
    (s : Fin 27) (c : Fin 3) : EReal :=
  if bdist2 x0 x1 x2 a b s < Ideal.ofBits .f32 0x41C80000#32
      ∧ ¬(s = 13 ∧ (i 0).val * 128 + a.val = (i 1).val * 128 + b.val)
  then bcomp x0 x1 x2 a b s c else Ideal.ofBits .f32 0x00000000#32

variable (x0 : Vec Ideal S128x3 .f32) (x1 : Vec Ideal S3x128 .f32) (x2 : Vec Ideal S27x3 .f32)

theorem comp_apply (s : Fin 27) (c : Fin 3) (a b : Fin 128) :
    comp (F := Ideal) x0 x1 x2 s c (ix2 a b) = bcomp x0 x1 x2 a b s c := by
  unfold comp base bcomp
  rw [addf_apply, subf_apply, broadcast_apply, row_bcast, col_bcast, cast_ld_row, cast_ld_col, shiftAt_eq]

theorem near_apply (s : Fin 27) (a b : Fin 128) :
    near (F := Ideal) x0 x1 x2 s (ix2 a b)
      = BitVec.ofBool (decide (bdist2 x0 x1 x2 a b s < Ideal.ofBits .f32 0x41C80000#32)) := by
  unfold near bdist2
  rw [cmpf_apply, addf_apply, addf_apply, mulf_apply, mulf_apply, mulf_apply, broadcast_apply,
    comp_apply, comp_apply, comp_apply]
  rfl

theorem fill_apply (a b : Fin 128) : fill (F := Ideal) (ix2 a b) = Ideal.ofBits .f32 0x00000000#32 := rfl

/-- The slab of an image other than the unshifted one, at (a, b). -/
theorem piece_cell (i : grid0.Coords) (s : Fin 27) (hs : s ≠ 13) (c : Fin 3) (a b : Fin 128) :
    piece (F := Ideal) x0 x1 x2 s c (ix3 a b (0 : Fin 1)) = bcell i x0 x1 x2 a b s c := by
  unfold piece bcell
  rw [cast_slab, select_apply, near_apply, comp_apply, fill_apply, Cert.RadiusGraph.select_ofBool]
  have hn : ¬(s = 13 ∧ (i 0).val * 128 + a.val = (i 1).val * 128 + b.val) := fun h => hs h.1
  by_cases hd : bdist2 x0 x1 x2 a b s < Ideal.ofBits .f32 0x41C80000#32
  · rw [if_pos hd, if_pos ⟨hd, hn⟩]
  · rw [if_neg hd, if_neg (fun h => hd h.1)]

/-! ## The unshifted image: the diagonal bit -/

/-- The word `128·p + q` computed on 32 bits, for a grid coordinate `p < 8` and a tile coordinate `q < 128`. -/
theorem word_eq (p q : Nat) (hp : p < 8) (hq : q < 128) :
    BitVec.ofNat 32 p * 128#32 + BitVec.ofNat 32 q = BitVec.ofNat 32 (p * 128 + q) := by
  apply BitVec.eq_of_toNat_eq
  simp only [BitVec.toNat_add, BitVec.toNat_mul, BitVec.toNat_ofNat]
  omega

/-- Two such words are equal exactly when the numbers are. -/
theorem word_inj (n m : Nat) (hn : n < 1024) (hm : m < 1024) : (BitVec.ofNat 32 n = BitVec.ofNat 32 m) ↔ n = m := by
  constructor
  · intro h
    have := congrArg BitVec.toNat h
    simp only [BitVec.toNat_ofNat] at this
    omega
  · intro h; rw [h]

/-- The body's bit "row atom = column atom" at (a, b) of grid point `i`. -/
theorem diag_apply (i : grid0.Coords) (a b : Fin 128) :
    k0_pay3 i (ix2 a b) = BitVec.ofBool (decide ((i 0).val * 128 + a.val = (i 1).val * 128 + b.val)) := by
  have h0 : (i 0).val < 8 := (i 0).isLt
  have h1 : (i 1).val < 8 := (i 1).isLt
  have e : k0_pay3 i (ix2 a b)
      = BitVec.ofBool ((BitVec.ofNat 32 (i 0).val * 128#32 + BitVec.ofNat 32 a.val)
          == (BitVec.ofNat 32 (i 1).val * 128#32 + BitVec.ofNat 32 b.val)) := by
    unfold k0_pay3
    show IntOp.cmpi .eq (IntOp.addi _ (iota .tc S128x128 32 [0] iota_S128x128_d0_w32 (ix2 a b)))
        (IntOp.addi _ (iota .tc S128x128 32 [1] iota_S128x128_d1_w32 (ix2 a b))) = _
    rw [iota_single_apply, iota_single_apply]
    rfl
  rw [e, word_eq _ _ h0 a.isLt, word_eq _ _ h1 b.isLt]
  congr 1
  rw [beq_eq_decide]
  exact decide_eq_decide.mpr (word_inj _ _ (by omega) (by omega))

/-- The slab of the unshifted image, at (a, b). -/
theorem pieceSelf_cell (i : grid0.Coords) (c : Fin 3) (a b : Fin 128) :
    pieceSelf (F := Ideal) i x0 x1 x2 c (ix3 a b (0 : Fin 1)) = bcell i x0 x1 x2 a b 13 c := by
  unfold pieceSelf bcell
  rw [cast_slab, select_apply, comp_apply, fill_apply]
  show Scalar.select (IntOp.andi (near (F := Ideal) x0 x1 x2 13 (ix2 a b)) (IntOp.xori (k0_pay3 i (ix2 a b)) 1#1)) _ _ = _
  rw [near_apply, diag_apply]
  by_cases hd : bdist2 x0 x1 x2 a b 13 < Ideal.ofBits .f32 0x41C80000#32
  · by_cases he : (i 0).val * 128 + a.val = (i 1).val * 128 + b.val
    · rw [if_neg (fun h => h.2 ⟨rfl, he⟩)]
      simp only [hd, he, decide_true, BitVec.ofBool_true]
      rfl
    · rw [if_pos ⟨hd, fun h => he h.2⟩]
      simp only [hd, he, decide_true, decide_false, BitVec.ofBool_true, BitVec.ofBool_false]
      rfl
  · rw [if_neg (fun h => hd h.1)]
    simp only [hd, decide_false, BitVec.ofBool_false]
    by_cases he : (i 0).val * 128 + a.val = (i 1).val * 128 + b.val
    · simp only [he, decide_true, BitVec.ofBool_true]; rfl
    · simp only [he, decide_false, BitVec.ofBool_false]; rfl

end Cert.KernelIdeal.Body

end
-- ==== Proof.BodyBlock.lean ====
/-
  The block one grid point writes, as ONE function of the block's index.

  The body fills its 128 × 128 × 81 block by 81 stores, one slab of thickness one per lane k = 3·s + c (image `s`,
  component `c`). Every slab agrees with the same function of the block index — entry (a, b, k) is the masked displacement
  component `c = k mod 3` to image `s = k div 3` from the tile's row atom `a` to its column atom `b` — so the block, the
  canonical contents those stores leave, is that function: however many slabs, in whatever order, each stored value is
  the function's restriction to its slab, and the slabs cover the block.
-/
import proofs.«129882_j47519518163698_1_alg».proof.Proof.BodyRead
import proofs.«129882_j47519518163698_1_alg».proof.Proof.KernelIdealFrame

set_option maxRecDepth 16384

noncomputable section

namespace Cert.KernelIdeal.Body

open Idealize.ShloMosaic Idealize.ShloMosaic.ValueIdx Cert.KernelIdeal Cert.KernelIdeal.Gen Cert.KernelIdeal.GenP

/-- The image a lane of the block belongs to. -/
def imageOf (k : Fin 81) : Fin 27 := ⟨k.val / 3, by have := k.isLt; omega⟩
/-- The component a lane of the block holds. -/
def compOf (k : Fin 81) : Fin 3 := ⟨k.val % 3, Nat.mod_lt _ (by decide)⟩

/-- The block grid point `i` writes, from its rows of the positions `x0`, its columns of the transposed positions `x1`
    and the translations `x2`. -/
def blockOf (i : grid0.Coords) (x0 : Vec Ideal S128x3 .f32) (x1 : Vec Ideal S3x128 .f32) (x2 : Vec Ideal S27x3 .f32) :
    Vec Ideal S128x128x81 .f32 :=
  fun y => bcell i x0 x1 x2 (y 0) (y 1) (imageOf (y 2)) (compOf (y 2))

variable (i : grid0.Coords) (x0 : Vec Ideal S128x3 .f32) (x1 : Vec Ideal S3x128 .f32) (x2 : Vec Ideal S27x3 .f32)

/-- The block's function at an index of the slab of lane `k`. -/
theorem blockOf_slab (k : Nat) (inb : ∀ a, (![0, 0, k] : Fin 3 → Nat) a + S128x128x1.size a ≤ S128x128x81.size a)
    (s : Fin 27) (c : Fin 3) (hk : k = 3 * s.val + c.val) (a b : Fin 128) :
    blockOf i x0 x1 x2 ((Rect.unit (s := S128x128x81) ![0, 0, k] S128x128x1.size inb).emb (ix3 a b (0 : Fin 1)))
      = bcell i x0 x1 x2 a b s c := by
  have e0 : (Rect.unit (s := S128x128x81) ![0, 0, k] S128x128x1.size inb).emb (ix3 a b (0 : Fin 1)) 0 = a :=
    Fin.ext (by show 0 + 1 * a.val = a.val; omega)
  have e1 : (Rect.unit (s := S128x128x81) ![0, 0, k] S128x128x1.size inb).emb (ix3 a b (0 : Fin 1)) 1 = b :=
    Fin.ext (by show 0 + 1 * b.val = b.val; omega)
  have e2 : ((Rect.unit (s := S128x128x81) ![0, 0, k] S128x128x1.size inb).emb (ix3 a b (0 : Fin 1)) 2).val = k := by
    show k + 1 * 0 = k; omega
  have es : imageOf ((Rect.unit (s := S128x128x81) ![0, 0, k] S128x128x1.size inb).emb (ix3 a b (0 : Fin 1)) 2) = s :=
    Fin.ext (by show _ / 3 = s.val; rw [e2, hk]; have := c.isLt; omega)
  have ec : compOf ((Rect.unit (s := S128x128x81) ![0, 0, k] S128x128x1.size inb).emb (ix3 a b (0 : Fin 1)) 2) = c :=
    Fin.ext (by show _ % 3 = c.val; rw [e2, hk]; have := c.isLt; omega)
  unfold blockOf
  rw [e0, e1, es, ec]

/-- An index of a slab of thickness one is (a, b, 0). -/
theorem slab_idx (x : S128x128x1.Idx) : ∃ (a b : Fin 128), x = ix3 a b (0 : Fin 1) :=
  have h2 : x 2 = (0 : Fin 1) := Fin.ext (Nat.lt_one_iff.mp (x 2).isLt)
  ⟨x 0, x 1, (eq_ix3 x).trans (congrArg (ix3 (x 0) (x 1)) h2)⟩

/-- The slab of an image other than the unshifted one is the block's function on its lane. -/
theorem slab_fact (s : Fin 27) (hs : s ≠ 13) (c : Fin 3) (k : Nat) (hk : k = 3 * s.val + c.val)
    (inb : ∀ a, (![0, 0, k] : Fin 3 → Nat) a + S128x128x1.size a ≤ S128x128x81.size a) :
    ∀ x : (Rect.unit (s := S128x128x81) ![0, 0, k] S128x128x1.size inb).shape.Idx,
      piece (F := Ideal) x0 x1 x2 s c x
        = blockOf i x0 x1 x2 ((Rect.unit (s := S128x128x81) ![0, 0, k] S128x128x1.size inb).emb x) := by
  intro x
  obtain ⟨a, b, rfl⟩ := slab_idx x
  exact (piece_cell x0 x1 x2 i s hs c a b).trans (blockOf_slab i x0 x1 x2 k inb s c hk a b).symm

/-- The slab of the unshifted image is the block's function on its lane. -/
theorem self_slab_fact (c : Fin 3) (k : Nat) (hk : k = 3 * (13 : Fin 27).val + c.val)
    (inb : ∀ a, (![0, 0, k] : Fin 3 → Nat) a + S128x128x1.size a ≤ S128x128x81.size a) :
    ∀ x : (Rect.unit (s := S128x128x81) ![0, 0, k] S128x128x1.size inb).shape.Idx,
      pieceSelf (F := Ideal) i x0 x1 x2 c x
        = blockOf i x0 x1 x2 ((Rect.unit (s := S128x128x81) ![0, 0, k] S128x128x1.size inb).emb x) := by
  intro x
  obtain ⟨a, b, rfl⟩ := slab_idx x
  exact (pieceSelf_cell x0 x1 x2 i c a b).trans (blockOf_slab i x0 x1 x2 k inb 13 c hk a b).symm

/-- One more stored slab agrees with the block's function: image, component, lane. The stored value is the generic
    slab of that image and component by unfolding its definition. -/
local macro "slab " s:num ", " c:num ", " k:num ", " h:ident : tactic =>
  `(tactic| refine List.forall_mem_cons.2 ⟨slab_fact i x0 x1 x2 $s (by decide) $c $k rfl $h, ?_⟩)
local macro "self_slab " c:num ", " k:num ", " h:ident : tactic =>
  `(tactic| refine List.forall_mem_cons.2 ⟨self_slab_fact i x0 x1 x2 $c $k rfl $h, ?_⟩)

set_option maxHeartbeats 4000000 in
/-- What the body leaves in the output window's buffer at grid point `i` is the block's function. -/
theorem out_eq_blockOf : out0_3 (F := Ideal) i x0 x1 x2 = blockOf i x0 x1 x2 := by
  funext y
  unfold out0_3
  refine View.canon_apply_of_pieces (blockOf i x0 x1 x2) _ ?_ y (cover0_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  dsimp only
  slab 26, 2, 80, inb_S128x128x81_S128x128x1_0_0_80
  slab 26, 1, 79, inb_S128x128x81_S128x128x1_0_0_79
  slab 26, 0, 78, inb_S128x128x81_S128x128x1_0_0_78
  slab 25, 2, 77, inb_S128x128x81_S128x128x1_0_0_77
  slab 25, 1, 76, inb_S128x128x81_S128x128x1_0_0_76
  slab 25, 0, 75, inb_S128x128x81_S128x128x1_0_0_75
  slab 24, 2, 74, inb_S128x128x81_S128x128x1_0_0_74
  slab 24, 1, 73, inb_S128x128x81_S128x128x1_0_0_73
  slab 24, 0, 72, inb_S128x128x81_S128x128x1_0_0_72
  slab 23, 2, 71, inb_S128x128x81_S128x128x1_0_0_71
  slab 23, 1, 70, inb_S128x128x81_S128x128x1_0_0_70
  slab 23, 0, 69, inb_S128x128x81_S128x128x1_0_0_69
  slab 22, 2, 68, inb_S128x128x81_S128x128x1_0_0_68
  slab 22, 1, 67, inb_S128x128x81_S128x128x1_0_0_67
  slab 22, 0, 66, inb_S128x128x81_S128x128x1_0_0_66
  slab 21, 2, 65, inb_S128x128x81_S128x128x1_0_0_65
  slab 21, 1, 64, inb_S128x128x81_S128x128x1_0_0_64
  slab 21, 0, 63, inb_S128x128x81_S128x128x1_0_0_63
  slab 20, 2, 62, inb_S128x128x81_S128x128x1_0_0_62
  slab 20, 1, 61, inb_S128x128x81_S128x128x1_0_0_61
  slab 20, 0, 60, inb_S128x128x81_S128x128x1_0_0_60
  slab 19, 2, 59, inb_S128x128x81_S128x128x1_0_0_59
  slab 19, 1, 58, inb_S128x128x81_S128x128x1_0_0_58
  slab 19, 0, 57, inb_S128x128x81_S128x128x1_0_0_57
  slab 18, 2, 56, inb_S128x128x81_S128x128x1_0_0_56
  slab 18, 1, 55, inb_S128x128x81_S128x128x1_0_0_55
  slab 18, 0, 54, inb_S128x128x81_S128x128x1_0_0_54
  slab 17, 2, 53, inb_S128x128x81_S128x128x1_0_0_53
  slab 17, 1, 52, inb_S128x128x81_S128x128x1_0_0_52
  slab 17, 0, 51, inb_S128x128x81_S128x128x1_0_0_51
  slab 16, 2, 50, inb_S128x128x81_S128x128x1_0_0_50
  slab 16, 1, 49, inb_S128x128x81_S128x128x1_0_0_49
  slab 16, 0, 48, inb_S128x128x81_S128x128x1_0_0_48
  slab 15, 2, 47, inb_S128x128x81_S128x128x1_0_0_47
  slab 15, 1, 46, inb_S128x128x81_S128x128x1_0_0_46
  slab 15, 0, 45, inb_S128x128x81_S128x128x1_0_0_45
  slab 14, 2, 44, inb_S128x128x81_S128x128x1_0_0_44
  slab 14, 1, 43, inb_S128x128x81_S128x128x1_0_0_43
  slab 14, 0, 42, inb_S128x128x81_S128x128x1_0_0_42
  self_slab 2, 41, inb_S128x128x81_S128x128x1_0_0_41
  self_slab 1, 40, inb_S128x128x81_S128x128x1_0_0_40
  self_slab 0, 39, inb_S128x128x81_S128x128x1_0_0_39
  slab 12, 2, 38, inb_S128x128x81_S128x128x1_0_0_38
  slab 12, 1, 37, inb_S128x128x81_S128x128x1_0_0_37
  slab 12, 0, 36, inb_S128x128x81_S128x128x1_0_0_36
  slab 11, 2, 35, inb_S128x128x81_S128x128x1_0_0_35
  slab 11, 1, 34, inb_S128x128x81_S128x128x1_0_0_34
  slab 11, 0, 33, inb_S128x128x81_S128x128x1_0_0_33
  slab 10, 2, 32, inb_S128x128x81_S128x128x1_0_0_32
  slab 10, 1, 31, inb_S128x128x81_S128x128x1_0_0_31
  slab 10, 0, 30, inb_S128x128x81_S128x128x1_0_0_30
  slab 9, 2, 29, inb_S128x128x81_S128x128x1_0_0_29
  slab 9, 1, 28, inb_S128x128x81_S128x128x1_0_0_28
  slab 9, 0, 27, inb_S128x128x81_S128x128x1_0_0_27
  slab 8, 2, 26, inb_S128x128x81_S128x128x1_0_0_26
  slab 8, 1, 25, inb_S128x128x81_S128x128x1_0_0_25
  slab 8, 0, 24, inb_S128x128x81_S128x128x1_0_0_24
  slab 7, 2, 23, inb_S128x128x81_S128x128x1_0_0_23
  slab 7, 1, 22, inb_S128x128x81_S128x128x1_0_0_22
  slab 7, 0, 21, inb_S128x128x81_S128x128x1_0_0_21
  slab 6, 2, 20, inb_S128x128x81_S128x128x1_0_0_20
  slab 6, 1, 19, inb_S128x128x81_S128x128x1_0_0_19
  slab 6, 0, 18, inb_S128x128x81_S128x128x1_0_0_18
  slab 5, 2, 17, inb_S128x128x81_S128x128x1_0_0_17
  slab 5, 1, 16, inb_S128x128x81_S128x128x1_0_0_16
  slab 5, 0, 15, inb_S128x128x81_S128x128x1_0_0_15
  slab 4, 2, 14, inb_S128x128x81_S128x128x1_0_0_14
  slab 4, 1, 13, inb_S128x128x81_S128x128x1_0_0_13
  slab 4, 0, 12, inb_S128x128x81_S128x128x1_0_0_12
  slab 3, 2, 11, inb_S128x128x81_S128x128x1_0_0_11
  slab 3, 1, 10, inb_S128x128x81_S128x128x1_0_0_10
  slab 3, 0, 9, inb_S128x128x81_S128x128x1_0_0_9
  slab 2, 2, 8, inb_S128x128x81_S128x128x1_0_0_8
  slab 2, 1, 7, inb_S128x128x81_S128x128x1_0_0_7
  slab 2, 0, 6, inb_S128x128x81_S128x128x1_0_0_6
  slab 1, 2, 5, inb_S128x128x81_S128x128x1_0_0_5
  slab 1, 1, 4, inb_S128x128x81_S128x128x1_0_0_4
  slab 1, 0, 3, inb_S128x128x81_S128x128x1_0_0_3
  slab 0, 2, 2, inb_S128x128x81_S128x128x1_0_0_2
  slab 0, 1, 1, inb_S128x128x81_S128x128x1_0_0_1
  slab 0, 0, 0, inb_S128x128x81_S128x128x1_0_0_0
  exact fun _ h => absurd h List.not_mem_nil

end Cert.KernelIdeal.Body

end
-- ==== Proof.ArrayCells.lean ====
/-
  The kernel's arrangement of one entry of the tensor, over the whole arrays, and its agreement with the specification.

  The kernel reads atom `j`'s position from the TRANSPOSED positions `Ct` (component, atom) and atom `i`'s from the
  positions `C` (atom, component), forms each component as `(Ct[c, j] - C[i, c]) + T[s, c]`, adds the three squares left to
  right, and tests the pair's identity on the atoms' numbers. With `Ct` the transpose of `C` this is the specification's
  entry: the component regroups by commutativity and associativity of addition on the extended reals, the sum of three
  squares is the sum over the three components, and two atoms are the same exactly when their numbers are.
-/
import proofs.«129882_j47519518163698_1_alg».proof.Proof.Spec

noncomputable section

namespace Cert.RadiusGraph

open Idealize.ShloMosaic Idealize.ShloMosaic.ValueIdx

/-- Transposed positions: component, atom. -/
abbrev CartT := (⟨2, ![3, 1024]⟩ : Shape).Idx → EReal

/-- Component `c` of the displacement, in the kernel's grouping. -/
def gcomp (C : Cart) (Ct : CartT) (T : Shifts) (i j : Fin 1024) (s : Fin 27) (c : Fin 3) : EReal :=
  (Ct (ix2 c j) - C (ix2 i c)) + T (ix2 s c)

/-- Its squared length, the three squares added left to right. -/
def gdist2 (C : Cart) (Ct : CartT) (T : Shifts) (i j : Fin 1024) (s : Fin 27) : EReal :=
  gcomp C Ct T i j s 0 * gcomp C Ct T i j s 0 + gcomp C Ct T i j s 1 * gcomp C Ct T i j s 1
    + gcomp C Ct T i j s 2 * gcomp C Ct T i j s 2

open Classical in
/-- One entry, in the kernel's arrangement. -/
def gcell (r2 z : EReal) (C : Cart) (Ct : CartT) (T : Shifts) (i j : Fin 1024) (s : Fin 27) (c : Fin 3) : EReal :=
  if gdist2 C Ct T i j s < r2 ∧ ¬(s = 13 ∧ i.val = j.val) then gcomp C Ct T i j s c else z

variable (r2 z : EReal) (C : Cart) (Ct : CartT) (T : Shifts)

theorem gcomp_eq_disp (hCt : ∀ (c : Fin 3) (j : Fin 1024), Ct (ix2 c j) = C (ix2 j c)) (i j : Fin 1024) (s : Fin 27) (c : Fin 3) :
    gcomp C Ct T i j s c = disp C T i j s c := by
  unfold gcomp
  rw [hCt]
  exact disp_of_diff_add C T i j s c

theorem gdist2_eq_dist2 (hCt : ∀ (c : Fin 3) (j : Fin 1024), Ct (ix2 c j) = C (ix2 j c)) (i j : Fin 1024) (s : Fin 27) :
    gdist2 C Ct T i j s = dist2 C T i j s := by
  unfold gdist2
  rw [gcomp_eq_disp C Ct T hCt, gcomp_eq_disp C Ct T hCt, gcomp_eq_disp C Ct T hCt, dist2_eq_three]

/-- With `Ct` the transpose of `C`, the kernel's entry is the specification's. -/
theorem gcell_eq_cell (hCt : ∀ (c : Fin 3) (j : Fin 1024), Ct (ix2 c j) = C (ix2 j c)) (i j : Fin 1024) (s : Fin 27) (c : Fin 3) :
    gcell r2 z C Ct T i j s c = cell r2 z C T i j s c := by
  unfold gcell cell IsEdge
  rw [gdist2_eq_dist2 C Ct T hCt, gcomp_eq_disp C Ct T hCt]
  have hiff : (dist2 C T i j s < r2 ∧ ¬(s = 13 ∧ i.val = j.val)) ↔ (dist2 C T i j s < r2 ∧ ¬(i = j ∧ s = 13)) :=
    and_congr_right fun _ => not_congr ⟨fun h => ⟨Fin.ext h.2, h.1⟩, fun h => ⟨h.2, congrArg Fin.val h.1⟩⟩
  by_cases h : dist2 C T i j s < r2 ∧ ¬(i = j ∧ s = 13)
  · rw [if_pos h, if_pos (hiff.mpr h)]
  · rw [if_neg h, if_neg (fun h' => h (hiff.mp h'))]

end Cert.RadiusGraph

end
-- ==== Proof.KernelArray.lean ====
/-
  From the blocks to the array: what the region leaves in the [1024, 1024, 81] array.

  Grid point (p, q) of the 8 × 8 grid stages rows 128·p … 128·p + 127 of the positions, columns 128·q … 128·q + 127 of the
  transposed positions and all the translations, and writes back block (p, q) of the array, all 81 lanes. So entry (a, b)
  of its block speaks of atoms 128·p + a and 128·q + b, the block is the restriction of ONE function of the whole arrays
  to the block's rectangle, and — the 64 blocks tiling the array — the array ends holding that function.
-/
import proofs.«129882_j47519518163698_1_alg».proof.Proof.BodyBlock
import proofs.«129882_j47519518163698_1_alg».proof.Proof.ArrayCells

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.KernelIdeal.GenP Cert.KernelIdeal.Body Cert.RadiusGraph
open Idealize.ShloMosaic.Pipeline (Dat)

/-- The squared cutoff, 25, as the programs spell it. -/
abbrev r2 : EReal := Ideal.ofBits .f32 0x41C80000#32
/-- The fill value, 0, as the programs spell it. -/
abbrev zf : EReal := Ideal.ofBits .f32 0x00000000#32

/-- The array the region leaves, from the positions `C`, their transpose `Ct` and the translations `T`: entry
    (i, j, k) is the kernel's entry for atoms `i`, `j`, image `k div 3`, component `k mod 3`. -/
def arrOf (C : Cart) (Ct : CartT) (T : Shifts) : S1024x1024x81.Idx → EReal :=
  fun y => gcell r2 zf C Ct T (y 0) (y 1) (imageOf (y 2)) (compOf (y 2))

/-- A block's entry is the array's entry at the atoms the block's rows and columns stand for. -/
theorem bcell_eq_gcell (i : grid0.Coords) (x0 : Vec Ideal S128x3 .f32) (x1 : Vec Ideal S3x128 .f32) (x2 : Vec Ideal S27x3 .f32)
    (C : Cart) (Ct : CartT) (T : Shifts) (a b : Fin 128) (ia jb : Fin 1024) (s : Fin 27) (c : Fin 3)
    (hia : ia.val = (i 0).val * 128 + a.val) (hjb : jb.val = (i 1).val * 128 + b.val)
    (h0 : ∀ c' : Fin 3, (x0 (ix2 a c') : EReal) = C (ix2 ia c'))
    (h1 : ∀ c' : Fin 3, (x1 (ix2 c' b) : EReal) = Ct (ix2 c' jb))
    (h2 : ∀ c' : Fin 3, (x2 (ix2 s c') : EReal) = T (ix2 s c')) :
    bcell i x0 x1 x2 a b s c = gcell r2 zf C Ct T ia jb s c := by
  have hc : ∀ c' : Fin 3, bcomp x0 x1 x2 a b s c' = gcomp C Ct T ia jb s c' := fun c' => by
    unfold bcomp gcomp; rw [h0, h1, h2]
  have hd : bdist2 x0 x1 x2 a b s = gdist2 C Ct T ia jb s := by
    unfold bdist2 gdist2; rw [hc, hc, hc]
  have hiff : (bdist2 x0 x1 x2 a b s < Ideal.ofBits .f32 0x41C80000#32
        ∧ ¬(s = 13 ∧ (i 0).val * 128 + a.val = (i 1).val * 128 + b.val))
      ↔ (gdist2 C Ct T ia jb s < r2 ∧ ¬(s = 13 ∧ ia.val = jb.val)) := by
    rw [hd, hia, hjb]
  unfold bcell gcell
  by_cases h : bdist2 x0 x1 x2 a b s < Ideal.ofBits .f32 0x41C80000#32
      ∧ ¬(s = 13 ∧ (i 0).val * 128 + a.val = (i 1).val * 128 + b.val)
  · rw [if_pos h, if_pos (hiff.mp h)]; exact hc c
  · rw [if_neg h, if_neg (fun h' => h (hiff.mpr h'))]

variable (m : (ℓ : Loc nD τ sig) → Buf (Elt Ideal) ℓ)

/-- The printed index maps, decided over the 64 grid points: the output's block index is the grid point (all lanes),
    the rows window follows the first coordinate, the columns window the second, the translations stay. -/
theorem idx_facts : ∀ t : Fin cfg0.N,
    win0_3.index t (0 : Fin 3) = (grid0.coords t 0).val ∧ win0_3.index t (1 : Fin 3) = (grid0.coords t 1).val
    ∧ win0_3.index t (2 : Fin 3) = 0
    ∧ win0_0.index t (0 : Fin 2) = (grid0.coords t 0).val ∧ win0_0.index t (1 : Fin 2) = 0
    ∧ win0_1.index t (0 : Fin 2) = 0 ∧ win0_1.index t (1 : Fin 2) = (grid0.coords t 1).val
    ∧ win0_2.index t (0 : Fin 2) = 0 ∧ win0_2.index t (1 : Fin 2) = 0 :=
  (by decide +kernel : ∀ t : Fin grid0.N, _)

/-- Every block of the 8 × 8 tiling is some grid point's. -/
theorem idx_onto : ∀ (q0 q1 : Fin 8), ∃ t : Fin cfg0.N, win0_3.index t = ![q0.val, q1.val, 0] :=
  (by decide +kernel : ∀ (q0 q1 : Fin 8), ∃ t : Fin grid0.N, win0_3.index t = ![q0.val, q1.val, 0])

/-- What grid point `t` writes back is block `t` of the array's function of the arrays the region finds. -/
theorem flushed_eq (c : Dev nD) (t : Fin cfg0.N) :
    (dats m 0 c).flushed 3 t
      = ((cfg0.win 3).blk t).view.read (Elt Ideal) (arrOf (V m c main_v0) (V m c main_v1) (V m c main_v2)) := by
  show (cfg0.win 3).cut (grid0.coords t) ((dats m 0 c).after 3 t) = _
  rw [after0_3, out_eq_blockOf]
  obtain ⟨e30, e31, e32, e00, e01, e10, e11, e20, e21⟩ := idx_facts t
  funext y
  obtain ⟨a, b, k, rfl⟩ : ∃ (a b : Fin 128) (k : Fin 81), y = ix3 a b k := ⟨y 0, y 1, y 2, eq_ix3 y⟩
  show bcell (grid0.coords t) (iblk m c 0 t) (iblk m c 1 t) (iblk m c 2 t) a b (imageOf k) (compOf k)
    = gcell r2 zf (V m c main_v0) (V m c main_v1) (V m c main_v2)
        ((((cfg0.win 3).blk t).view.emb (ix3 a b k)) 0) ((((cfg0.win 3).blk t).view.emb (ix3 a b k)) 1)
        (imageOf ((((cfg0.win 3).blk t).view.emb (ix3 a b k)) 2)) (compOf ((((cfg0.win 3).blk t).view.emb (ix3 a b k)) 2))
  have E0 : ((((cfg0.win 3).blk t).view.emb (ix3 a b k)) 0).val = (grid0.coords t 0).val * 128 + a.val := by
    show win0_3.index t (0 : Fin 3) * 128 + 1 * a.val = _
    rw [e30]; omega
  have E1 : ((((cfg0.win 3).blk t).view.emb (ix3 a b k)) 1).val = (grid0.coords t 1).val * 128 + b.val := by
    show win0_3.index t (1 : Fin 3) * 128 + 1 * b.val = _
    rw [e31]; omega
  have E2 : (((cfg0.win 3).blk t).view.emb (ix3 a b k)) 2 = k := Fin.ext (by
    show win0_3.index t (2 : Fin 3) * 81 + 1 * k.val = k.val
    rw [e32]; omega)
  rw [E2]
  refine bcell_eq_gcell (grid0.coords t) (iblk m c 0 t) (iblk m c 1 t) (iblk m c 2 t) (V m c main_v0) (V m c main_v1)
    (V m c main_v2) a b _ _ (imageOf k) (compOf k) E0 E1 ?_ ?_ ?_
  · intro c'
    show V m c main_v0 (((cfg0.win 0).blk t).view.emb (ix2 a c')) = V m c main_v0 (ix2 _ c')
    refine congrArg (V m c main_v0) (funext fun d => Fin.ext ?_)
    match d with
    | ⟨0, _⟩ => show win0_0.index t (0 : Fin 2) * 128 + 1 * a.val = _; rw [e00, E0]; omega
    | ⟨1, _⟩ => show win0_0.index t (1 : Fin 2) * 3 + 1 * c'.val = c'.val; rw [e01]; omega
  · intro c'
    show V m c main_v1 (((cfg0.win 1).blk t).view.emb (ix2 c' b)) = V m c main_v1 (ix2 c' _)
    refine congrArg (V m c main_v1) (funext fun d => Fin.ext ?_)
    match d with
    | ⟨0, _⟩ => show win0_1.index t (0 : Fin 2) * 3 + 1 * c'.val = c'.val; rw [e10]; omega
    | ⟨1, _⟩ => show win0_1.index t (1 : Fin 2) * 128 + 1 * b.val = _; rw [e11, E1]; omega
  · intro c'
    show V m c main_v2 (((cfg0.win 2).blk t).view.emb (ix2 (imageOf k) c')) = V m c main_v2 (ix2 (imageOf k) c')
    refine congrArg (V m c main_v2) (funext fun d => Fin.ext ?_)
    match d with
    | ⟨0, _⟩ => show win0_2.index t (0 : Fin 2) * 27 + 1 * (imageOf k).val = (imageOf k).val; rw [e20]; omega
    | ⟨1, _⟩ => show win0_2.index t (1 : Fin 2) * 3 + 1 * c'.val = c'.val; rw [e21]; omega

/-- An index of the array is in point `t`'s block iff each coordinate is in the block's range on its axis. -/
theorem mem_blk (t : Fin cfg0.N) (y : S1024x1024x81.Idx) :
    y ∈ ((cfg0.win 3).blk t).view.set ↔ ∀ a : Fin 3, win0_3.index t a * S128x128x81.size a ≤ (y a).val
      ∧ (y a).val < win0_3.index t a * S128x128x81.size a + S128x128x81.size a := by
  show y ∈ ((View.whole main_v3).slice (win0_3.rect t)).set ↔ _
  rw [View.set_slice_whole, Rect.mem_set_unit]
  exact Iff.rfl

/-- The 64 blocks cover the array: index (i, j, k) lies in the block of grid point (i div 128, j div 128). -/
theorem cover (y : S1024x1024x81.Idx) :
    ∃ t : Fin cfg0.N, (cfg0.win 3).flush t = true ∧ y ∈ ((cfg0.win 3).blk t).view.set := by
  have h0 : (y 0).val < 1024 := (y 0).isLt
  have h1 : (y 1).val < 1024 := (y 1).isLt
  have h2 : (y 2).val < 81 := (y 2).isLt
  obtain ⟨t, ht⟩ := idx_onto ⟨(y 0).val / 128, by omega⟩ ⟨(y 1).val / 128, by omega⟩
  have q0 : win0_3.index t (0 : Fin 3) = (y 0).val / 128 := congrFun ht 0
  have q1 : win0_3.index t (1 : Fin 3) = (y 1).val / 128 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 128 ≤ (y 0).val ∧ (y 0).val < win0_3.index t (0 : Fin 3) * 128 + 128
    omega
  | ⟨1, _⟩ =>
    show win0_3.index t (1 : Fin 3) * 128 ≤ (y 1).val ∧ (y 1).val < win0_3.index t (1 : Fin 3) * 128 + 128
    omega
  | ⟨2, _⟩ =>
    show win0_3.index t (2 : Fin 3) * 81 ≤ (y 2).val ∧ (y 2).val < win0_3.index t (2 : Fin 3) * 81 + 81
    omega

/-- The array after the region: the kernel's function of the arrays the region found. -/
theorem final (c : Dev nD) :
    (dats m 0 c).arrAt 3 cfg0.N = arrOf (V m c main_v0) (V m c main_v1) (V m c main_v2) :=
  (dats m 0 c).arrAt_eq_of_cover 3 _ (fun t _ => flushed_eq m c t) cover

end Cert.KernelIdeal.Arr

end
-- ==== Proof.KernelHost.lean ====
/-
  The host lines around the kernel's region, read back at the ideal instance.

  Before the region the program computes the positions `C = frac · cell` (a contraction over the three fractional
  coordinates), their transpose, and the translations `T = shifts · cell` of the 27 images; the region's three input
  windows stage exactly these arrays. After the region one line remains: the [1024, 1024, 81] array the region filled is
  viewed as [1024, 1024, 27, 3], lane `3·s + c` becoming (image `s`, component `c`) — the same row-major position.
-/
import proofs.«129882_j47519518163698_1_alg».proof.Proof.KernelIdealFrame
import Idealize.ShloMosaic.Lib.Pipeline.Value
import Idealize.ShloMosaic.Lib.ValueIdx
import Idealize.ShloMosaic.Lib.StableHlo.Run

noncomputable section

namespace Cert.KernelIdeal.HostSide

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat)

variable (m : (ℓ : Loc nD τ sig) → Buf (Elt Ideal) ℓ)

/-- The positions: fractional coordinates times the cell. -/
def cart (a0 : FVec Ideal S1024x3 .f32) (a1 : FVec Ideal S3x3 .f32) : FVec Ideal S1024x3 .f32 :=
  Host.dotGeneral (F := Ideal) dot_S1024x3_S3x3_S1024x3_1_0_0_1_n_n none a0 a1

/-- The 27 image translations: the table of shifts in {-1, 0, 1}³ times the cell. -/
def shiftCart (a1 : FVec Ideal S3x3 .f32) : FVec Ideal S27x3 .f32 :=
  Host.dotGeneral (F := Ideal) dot_S27x3_S3x3_S27x3_1_0_0_1_n_n none (fun i => FloatOps.ofBits .f32 (lit0 (S27x3.rowMajor i))) a1

/-- The first window's array at the region's entry: the positions. -/
theorem V_rows (c : Dev nD) :
    (V m c main_v0 : S1024x3.Idx → EReal)
      = cart (m ((c : Thread nD τ).loc main_arg0)) (m ((c : Thread nD τ).loc main_arg1)) := by
  show StableHlo.after hostOps0 (fun b => m (c, b)) (Proc.devRef .tc main_v0) = _
  after_results
  rfl

/-- The second window's array: the positions transposed. -/
theorem V_cols (c : Dev nD) :
    (V m c main_v1 : S3x1024.Idx → EReal)
      = transpose S3x1024 [1, 0] (cart (m ((c : Thread nD τ).loc main_arg0)) (m ((c : Thread nD τ).loc main_arg1)))
          transposes_S1024x3_S3x1024_1_0 := by
  show StableHlo.after hostOps0 (fun b => m (c, b)) (Proc.devRef .tc main_v1) = _
  after_results
  rfl

/-- The third window's array: the translations. -/
theorem V_shifts (c : Dev nD) :
    (V m c main_v2 : S27x3.Idx → EReal) = shiftCart (m ((c : Thread nD τ).loc main_arg1)) := by
  show StableHlo.after hostOps0 (fun b => m (c, b)) (Proc.devRef .tc main_v2) = _
  after_results
  rfl

/-- The transposed positions read at (component, atom). -/
theorem transpose_at (C : S1024x3.Idx → EReal) (h : S1024x3.Transposes [1, 0] S3x1024) (c : Fin 3) (j : Fin 1024) :
    transpose S3x1024 [1, 0] C h (ix2 c j) = C (ix2 j c) := by
  refine transpose_apply [1, 0] C h _ _ ?_
  intro b
  match b with
  | ⟨0, _⟩ => rfl
  | ⟨1, _⟩ => rfl

/-- The result buffer after the trailing line: the fourth window's final array viewed [1024, 1024, 27, 3]. -/
theorem result_eq (c : Dev nD) :
    (Pipeline.afterTail₀ cfgs (dats m) 0 (V0 m) [hostOps1] c main_v4 : S1024x1024x27x3.Idx → EReal)
      = shapeCast S1024x1024x27x3 ((dats m 0 c).arrAt 3 cfg0.N) shapeCasts_S1024x1024x81_S1024x1024x27x3 := by
  unfold Pipeline.afterTail₀
  show StableHlo.after hostOps1 _ (Proc.devRef .tc main_v4) = _
  after_results
  exact congrArg (fun X => shapeCast S1024x1024x27x3 X shapeCasts_S1024x1024x81_S1024x1024x27x3)
    (Pipeline.withArrays_arr spec0 launch0.win.arr_inj c _ _ 3)

/-- The view [1024, 1024, 81] → [1024, 1024, 27, 3] read at (i, j, s, c): lane 3·s + c of (i, j). -/
theorem cast_lanes {α : Type} (X : S1024x1024x81.Idx → α) (h : S1024x1024x81.ShapeCasts S1024x1024x27x3)
    (i j : Fin 1024) (s : Fin 27) (c : Fin 3) :
    shapeCast S1024x1024x27x3 X h (ix4 i j s c) = X (ix3 i j ⟨3 * s.val + c.val, by have := s.isLt; have := c.isLt; omega⟩) := by
  refine shapeCast_apply X h _ _ ?_
  rw [Shape.rowMajor_val_three, Shape.rowMajor_val_four]
  show (i.val * 1024 + j.val) * 81 + (3 * s.val + c.val) = ((i.val * 1024 + j.val) * 27 + s.val) * 3 + c.val
  omega

end Cert.KernelIdeal.HostSide

end
-- ==== Proof.KernelValue.lean ====
/-
  The kernel program's result at the ideal instance: the specification's tensor of the positions and the translations.

  The region leaves the [1024, 1024, 81] array at the kernel's function of the positions, their transpose and the
  translations; the trailing line views it [1024, 1024, 27, 3], lane 3·s + c becoming (s, c); and with the second array
  the transpose of the first the kernel's entry is the specification's. So every weakly fair execution ends with the
  result buffer at `G` of `frac · cell` and `shifts · cell`, the arguments as launched.
-/
import proofs.«129882_j47519518163698_1_alg».proof.Proof.KernelArray
import proofs.«129882_j47519518163698_1_alg».proof.Proof.KernelHost

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.GenP Cert.KernelIdeal.Body Cert.KernelIdeal.Arr
open Cert.KernelIdeal.HostSide Cert.RadiusGraph
open Idealize.ShloMosaic.Pipeline (Dat)

variable (m : (ℓ : Loc nD τ sig) → Buf (Elt Ideal) ℓ) (ρ : Dev nD → PrngReg)

/-- Lane 3·s + c belongs to image `s`. -/
theorem imageOf_lane (s : Fin 27) (c : Fin 3) (h : 3 * s.val + c.val < 81) : imageOf ⟨3 * s.val + c.val, h⟩ = s :=
  Fin.ext (by show (3 * s.val + c.val) / 3 = s.val; have := c.isLt; omega)

/-- Lane 3·s + c holds component `c`. -/
theorem compOf_lane (s : Fin 27) (c : Fin 3) (h : 3 * s.val + c.val < 81) : compOf ⟨3 * s.val + c.val, h⟩ = c :=
  Fin.ext (by show (3 * s.val + c.val) % 3 = c.val; have := c.isLt; omega)

/-- The result buffer after the run's last line is the specification's tensor. -/
theorem result_G (c : Dev nD) :
    (Pipeline.afterTail₀ cfgs (dats m) 0 (V0 m) [hostOps1] c main_v4 : S1024x1024x27x3.Idx → EReal)
      = G r2 zf (cart (m ((c : Thread nD τ).loc main_arg0)) (m ((c : Thread nD τ).loc main_arg1)))
          (shiftCart (m ((c : Thread nD τ).loc main_arg1))) := by
  rw [result_eq, Arr.final, V_rows, V_cols, V_shifts]
  funext y
  obtain ⟨i, j, s, c', rfl⟩ : ∃ (i j : Fin 1024) (s : Fin 27) (c' : Fin 3), y = ix4 i j s c' :=
    ⟨y 0, y 1, y 2, y 3, eq_ix4 y⟩
  rw [cast_lanes, G_ix4]
  show gcell r2 zf _ _ _ i j (imageOf ⟨3 * s.val + c'.val, _⟩) (compOf ⟨3 * s.val + c'.val, _⟩) = _
  rw [imageOf_lane, compOf_lane]
  exact gcell_eq_cell r2 zf _ _ _ (fun c j => transpose_at _ _ c j) i j s c'

/-- Every weakly fair execution of the kernel program ends with the result at the specification's tensor and the
    arguments as launched. -/
theorem run : θ_run defs (onTc (τ := τ) (main (F := Ideal))) ⟨m, fun _ => 0, ρ⟩ fun r => ∀ c : Dev nD,
      r.2.mem ((c.tc : Thread nD τ).loc main_v4)
        = G r2 zf (cart (m ((c : Thread nD τ).loc main_arg0)) (m ((c : Thread nD τ).loc main_arg1)))
            (shiftCart (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (result_G m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Value

end
-- ==== Proof.RefRun.lean ====
/-
  The reference program's run, read back.

  The reference computes, from the fractional coordinates `frac` (1024 atoms by 3) and the cell matrix `cell` (3 by 3):
  the cartesian positions `cart = frac · cell`; the 27 image translations `shift = shifts · cell`, `shifts` being the
  literal table of the vectors of {-1, 0, 1}³; the displacement `disp[i, j, s, c] = (cart[j, c] + shift[s, c]) - cart[i, c]`;
  its squared length `dist2[i, j, s]`, the sum over `c` of the squares; the mask
  `dist2 < 25 and not (i = j and s is the zero translation)`; and the result, `disp` where the mask holds and 0 elsewhere.

  This module lists the program's 37 host operations in order (the three of the outlined selection at its call site),
  shows that the program is that straight line, names the composed term of the two arguments the last operation's
  buffer ends at (`refTerm`, built from `dispOf`, `dist2Of`, `selfMask`, `maskOf`), and states the run: from any
  memory with zero counters every weakly fair execution terminates with the result buffer at `refTerm` of the two
  arguments' launch contents and both arguments unchanged. Generic in the float values.
-/
import proofs.«129882_j47519518163698_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 37 operations, in order: the 34 of its main function, then the three of the outlined selection
    (the mask broadcast over the components, the fill value broadcast, the selection) at its one call, over that
    call's buffers. -/
abbrev ops : List (HloOp τ sig (Elt F)) :=
  [ nullary main_cst (fun i => FloatOps.ofBits .f32 (lit0 (S27x3.rowMajor i))),
    nullary main_c (fun i => lit1 (S27.rowMajor i)),
    binary main_arg0 main_arg1 main_v0 ((fun l r => Host.dotGeneral dot_S1024x3_S3x3_S1024x3_1_0_0_1_n_n none l r) : (⟨S1024x3, .f32⟩ : BufTy).Contents (Elt F) → (⟨S3x3, .f32⟩ : BufTy).Contents (Elt F) → (⟨S1024x3, .f32⟩ : BufTy).Contents (Elt F)),
    binary main_cst main_arg1 main_v1 ((fun l r => Host.dotGeneral dot_S27x3_S3x3_S27x3_1_0_0_1_n_n none l r) : (⟨S27x3, .f32⟩ : BufTy).Contents (Elt F) → (⟨S3x3, .f32⟩ : BufTy).Contents (Elt F) → (⟨S27x3, .f32⟩ : BufTy).Contents (Elt F)),
    unary main_v0 main_v2 (broadcastInDim S1x1024x1x3 ![1, 3] bcast_S1024x3_S1x1024x1x3_1_3 : (⟨S1024x3, .f32⟩ : BufTy).Contents (Elt F) → (⟨S1x1024x1x3, .f32⟩ : BufTy).Contents (Elt F)),
    unary main_v1 main_v3 (broadcastInDim S1x1x27x3 ![2, 3] bcast_S27x3_S1x1x27x3_2_3 : (⟨S27x3, .f32⟩ : BufTy).Contents (Elt F) → (⟨S1x1x27x3, .f32⟩ : BufTy).Contents (Elt F)),
    unary main_v2 main_v4 (broadcastInDim S1x1024x27x3 ![0, 1, 2, 3] bcast_S1x1024x1x3_S1x1024x27x3_0_1_2_3 : (⟨S1x1024x1x3, .f32⟩ : BufTy).Contents (Elt F) → (⟨S1x1024x27x3, .f32⟩ : BufTy).Contents (Elt F)),
    unary main_v3 main_v5 (broadcastInDim S1x1024x27x3 ![0, 1, 2, 3] bcast_S1x1x27x3_S1x1024x27x3_0_1_2_3 : (⟨S1x1x27x3, .f32⟩ : BufTy).Contents (Elt F) → (⟨S1x1024x27x3, .f32⟩ : BufTy).Contents (Elt F)),
    binary main_v4 main_v5 main_v6 (addf : (⟨S1x1024x27x3, .f32⟩ : BufTy).Contents (Elt F) → (⟨S1x1024x27x3, .f32⟩ : BufTy).Contents (Elt F) → (⟨S1x1024x27x3, .f32⟩ : BufTy).Contents (Elt F)),
    unary main_v0 main_v7 (broadcastInDim S1024x1x1x3 ![0, 3] bcast_S1024x3_S1024x1x1x3_0_3 : (⟨S1024x3, .f32⟩ : BufTy).Contents (Elt F) → (⟨S1024x1x1x3, .f32⟩ : BufTy).Contents (Elt F)),
    unary main_v6 main_v8 (broadcastInDim S1024x1024x27x3 ![0, 1, 2, 3] bcast_S1x1024x27x3_S1024x1024x27x3_0_1_2_3 : (⟨S1x1024x27x3, .f32⟩ : BufTy).Contents (Elt F) → (⟨S1024x1024x27x3, .f32⟩ : BufTy).Contents (Elt F)),
    unary main_v7 main_v9 (broadcastInDim S1024x1024x27x3 ![0, 1, 2, 3] bcast_S1024x1x1x3_S1024x1024x27x3_0_1_2_3 : (⟨S1024x1x1x3, .f32⟩ : BufTy).Contents (Elt F) → (⟨S1024x1024x27x3, .f32⟩ : BufTy).Contents (Elt F)),
    binary main_v8 main_v9 main_v10 (subf : (⟨S1024x1024x27x3, .f32⟩ : BufTy).Contents (Elt F) → (⟨S1024x1024x27x3, .f32⟩ : BufTy).Contents (Elt F) → (⟨S1024x1024x27x3, .f32⟩ : BufTy).Contents (Elt F)),
    binary main_v10 main_v10 main_v11 (mulf : (⟨S1024x1024x27x3, .f32⟩ : BufTy).Contents (Elt F) → (⟨S1024x1024x27x3, .f32⟩ : BufTy).Contents (Elt F) → (⟨S1024x1024x27x3, .f32⟩ : BufTy).Contents (Elt F)),
    nullary main_cst_0 (constant S_ .f32 0x00000000#32),
    binary main_v11 main_cst_0 main_v12 ((fun x v => Host.reduceAdd x v reducesTo_S1024x1024x27x3_S1024x1024x27_d3 h_S_) : (⟨S1024x1024x27x3, .f32⟩ : BufTy).Contents (Elt F) → (⟨S_, .f32⟩ : BufTy).Contents (Elt F) → (⟨S1024x1024x27, .f32⟩ : BufTy).Contents (Elt F)),
    nullary main_v13 (iotaInDim S1024x1024 32 0),
    nullary main_v14 (iotaInDim S1024x1024 32 1),
    nullary main_c_1 (constantI S_ 32 0#32),
    unary main_c_1 main_v15 (broadcastInDim S1024x1024 ![] bcast_S_S1024x1024 : (⟨S_, .i32⟩ : BufTy).Contents (Elt F) → (⟨S1024x1024, .i32⟩ : BufTy).Contents (Elt F)),
    binary main_v13 main_v15 main_v16 (addi : (⟨S1024x1024, .i32⟩ : BufTy).Contents (Elt F) → (⟨S1024x1024, .i32⟩ : BufTy).Contents (Elt F) → (⟨S1024x1024, .i32⟩ : BufTy).Contents (Elt F)),
    binary main_v16 main_v14 main_v17 (cmpi .eq : (⟨S1024x1024, .i32⟩ : BufTy).Contents (Elt F) → (⟨S1024x1024, .i32⟩ : BufTy).Contents (Elt F) → (⟨S1024x1024, .i1⟩ : BufTy).Contents (Elt F)),
    unary main_v17 main_v18 (broadcastInDim S1024x1024x1 ![0, 1] bcast_S1024x1024_S1024x1024x1_0_1 : (⟨S1024x1024, .i1⟩ : BufTy).Contents (Elt F) → (⟨S1024x1024x1, .i1⟩ : BufTy).Contents (Elt F)),
    unary main_c main_v19 (broadcastInDim S1x1x27 ![2] bcast_S27_S1x1x27_2 : (⟨S27, .i1⟩ : BufTy).Contents (Elt F) → (⟨S1x1x27, .i1⟩ : BufTy).Contents (Elt F)),
    unary main_v18 main_v20 (broadcastInDim S1024x1024x27 ![0, 1, 2] bcast_S1024x1024x1_S1024x1024x27_0_1_2 : (⟨S1024x1024x1, .i1⟩ : BufTy).Contents (Elt F) → (⟨S1024x1024x27, .i1⟩ : BufTy).Contents (Elt F)),
    unary main_v19 main_v21 (broadcastInDim S1024x1024x27 ![0, 1, 2] bcast_S1x1x27_S1024x1024x27_0_1_2 : (⟨S1x1x27, .i1⟩ : BufTy).Contents (Elt F) → (⟨S1024x1024x27, .i1⟩ : BufTy).Contents (Elt F)),
    binary main_v20 main_v21 main_v22 (andi : (⟨S1024x1024x27, .i1⟩ : BufTy).Contents (Elt F) → (⟨S1024x1024x27, .i1⟩ : BufTy).Contents (Elt F) → (⟨S1024x1024x27, .i1⟩ : BufTy).Contents (Elt F)),
    nullary main_cst_2 (constant S_ .f32 0x41C80000#32),
    unary main_cst_2 main_v23 (broadcastInDim S1024x1024x27 ![] bcast_S_S1024x1024x27 : (⟨S_, .f32⟩ : BufTy).Contents (Elt F) → (⟨S1024x1024x27, .f32⟩ : BufTy).Contents (Elt F)),
    binary main_v12 main_v23 main_v24 (cmpf .olt : (⟨S1024x1024x27, .f32⟩ : BufTy).Contents (Elt F) → (⟨S1024x1024x27, .f32⟩ : BufTy).Contents (Elt F) → (⟨S1024x1024x27, .i1⟩ : BufTy).Contents (Elt F)),
    unary main_v22 main_v25 (noti : (⟨S1024x1024x27, .i1⟩ : BufTy).Contents (Elt F) → (⟨S1024x1024x27, .i1⟩ : BufTy).Contents (Elt F)),
    binary main_v24 main_v25 main_v26 (andi : (⟨S1024x1024x27, .i1⟩ : BufTy).Contents (Elt F) → (⟨S1024x1024x27, .i1⟩ : BufTy).Contents (Elt F) → (⟨S1024x1024x27, .i1⟩ : BufTy).Contents (Elt F)),
    unary main_v26 main_v27 (broadcastInDim S1024x1024x27x1 ![0, 1, 2] bcast_S1024x1024x27_S1024x1024x27x1_0_1_2 : (⟨S1024x1024x27, .i1⟩ : BufTy).Contents (Elt F) → (⟨S1024x1024x27x1, .i1⟩ : BufTy).Contents (Elt F)),
    nullary main_cst_3 (constant S_ .f32 0x00000000#32),
    TRef.unary (.of main_v27 : TRef sig ⟨S1024x1024x27x1, .i1⟩) main_call0.v0 (broadcastInDim S1024x1024x27x3 ![0, 1, 2, 3] bcast_S1024x1024x27x1_S1024x1024x27x3_0_1_2_3),
    TRef.unary (.of main_cst_3 : TRef sig ⟨S_, .f32⟩) main_call0.v1 (broadcastInDim S1024x1024x27x3 ![] bcast_S_S1024x1024x27x3),
    TRef.ternary main_call0.v0 (.of main_v10 : TRef sig ⟨S1024x1024x27x3, .f32⟩) main_call0.v1 main_call0.v2 select ]

-- thirty-seven binds re-associated
set_option maxRecDepth 2048 in
/-- The program is that straight line: the outlined function unfolded at its call and the call's buffer record at its
    fields, both sides are one chain of steps once sequencing is re-associated. -/
theorem main_eq (c : Dev nD) : main (F := F) c = seq ops := by
  simp only [main, fn_where.body, seq, bind_assoc, pure_bind]

/-- No buffer of the program is scoped. -/
theorem scopedRefs_eq : (Finset.univ.filter fun b : Ref sig .tc => b.isScoped) = ∅ := by decide
/-- No semaphore of the program is scoped (there is none). -/
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., nullary_bufs_sub .., binary_bufs_sub .., binary_bufs_sub .., unary_bufs_sub .., unary_bufs_sub ..,
    unary_bufs_sub .., unary_bufs_sub .., binary_bufs_sub .., unary_bufs_sub .., unary_bufs_sub .., unary_bufs_sub ..,
    binary_bufs_sub .., binary_bufs_sub .., nullary_bufs_sub .., binary_bufs_sub .., nullary_bufs_sub .., nullary_bufs_sub ..,
    nullary_bufs_sub .., unary_bufs_sub .., binary_bufs_sub .., binary_bufs_sub .., unary_bufs_sub .., unary_bufs_sub ..,
    unary_bufs_sub .., unary_bufs_sub .., binary_bufs_sub .., nullary_bufs_sub .., unary_bufs_sub .., binary_bufs_sub ..,
    unary_bufs_sub .., binary_bufs_sub .., unary_bufs_sub .., nullary_bufs_sub .., unary_bufs_sub .., unary_bufs_sub ..,
    ternary_bufs_sub ..⟩

/-! ## The composed term -/

/-- The displacement tensor from the cartesian positions `C` and the image translations `T`:
    at `(i, j, s, c)` it is `(C[j, c] + T[s, c]) - C[i, c]`, written with the program's broadcasts. -/
def dispOf (C : FVec F S1024x3 .f32) (T : FVec F S27x3 .f32) : FVec F S1024x1024x27x3 .f32 :=
  subf
    (broadcastInDim S1024x1024x27x3 ![0, 1, 2, 3] bcast_S1x1024x27x3_S1024x1024x27x3_0_1_2_3
      (addf
        (broadcastInDim S1x1024x27x3 ![0, 1, 2, 3] bcast_S1x1024x1x3_S1x1024x27x3_0_1_2_3
          (broadcastInDim S1x1024x1x3 ![1, 3] bcast_S1024x3_S1x1024x1x3_1_3 C))
        (broadcastInDim S1x1024x27x3 ![0, 1, 2, 3] bcast_S1x1x27x3_S1x1024x27x3_0_1_2_3
          (broadcastInDim S1x1x27x3 ![2, 3] bcast_S27x3_S1x1x27x3_2_3 T))))
    (broadcastInDim S1024x1024x27x3 ![0, 1, 2, 3] bcast_S1024x1x1x3_S1024x1024x27x3_0_1_2_3
      (broadcastInDim S1024x1x1x3 ![0, 3] bcast_S1024x3_S1024x1x1x3_0_3 C))

/-- The squared length of each displacement: its squares added over the component axis, from the constant 0. -/
def dist2Of (D : FVec F S1024x1024x27x3 .f32) : FVec F S1024x1024x27 .f32 :=
  Host.reduceAdd (mulf D D) (constant S_ .f32 0x00000000#32) reducesTo_S1024x1024x27x3_S1024x1024x27_d3 h_S_

/-- The mask of an atom paired with itself in the unshifted cell: at `(i, j, s)` the bit of `i = j` (two index
    tensors compared) and the literal table's bit at `s`. -/
def selfMask : IVec S1024x1024x27 1 :=
  andi
    (broadcastInDim S1024x1024x27 ![0, 1, 2] bcast_S1024x1024x1_S1024x1024x27_0_1_2
      (broadcastInDim S1024x1024x1 ![0, 1] bcast_S1024x1024_S1024x1024x1_0_1
        (cmpi .eq
          (addi (iotaInDim S1024x1024 32 0) (broadcastInDim S1024x1024 ![] bcast_S_S1024x1024 (constantI S_ 32 0#32)))
          (iotaInDim S1024x1024 32 1))))
    (broadcastInDim S1024x1024x27 ![0, 1, 2] bcast_S1x1x27_S1024x1024x27_0_1_2
      (broadcastInDim S1x1x27 ![2] bcast_S27_S1x1x27_2 (fun i => lit1 (S27.rowMajor i))))

/-- The edge mask of a displacement tensor: squared length below 25, and not an atom with itself in the unshifted cell. -/
def maskOf (D : FVec F S1024x1024x27x3 .f32) : IVec S1024x1024x27 1 :=
  andi
    (cmpf .olt (dist2Of D) (broadcastInDim S1024x1024x27 ![] bcast_S_S1024x1024x27 (constant S_ .f32 0x41C80000#32)))
    (noti selfMask)

/-- The displacement tensor where its mask holds, 0 elsewhere. -/
def maskedOf (D : FVec F S1024x1024x27x3 .f32) : FVec F S1024x1024x27x3 .f32 :=
  select
    (broadcastInDim S1024x1024x27x3 ![0, 1, 2, 3] bcast_S1024x1024x27x1_S1024x1024x27x3_0_1_2_3
      (broadcastInDim S1024x1024x27x1 ![0, 1, 2] bcast_S1024x1024x27_S1024x1024x27x1_0_1_2 (maskOf D)))
    D
    (broadcastInDim S1024x1024x27x3 ![] bcast_S_S1024x1024x27x3 (constant S_ .f32 0x00000000#32))

/-- What the program computes from its two arguments' contents `a0` (fractional coordinates) and `a1` (cell): the
    masked displacement tensor of the positions `a0 · a1` and the translations `shifts · a1`. -/
def refTerm (a0 : FVec F S1024x3 .f32) (a1 : FVec F S3x3 .f32) : FVec F S1024x1024x27x3 .f32 :=
  maskedOf
    (dispOf (Host.dotGeneral dot_S1024x3_S3x3_S1024x3_1_0_0_1_n_n none a0 a1)
      (Host.dotGeneral dot_S27x3_S3x3_S27x3_1_0_0_1_n_n none (fun i => FloatOps.ofBits .f32 (lit0 (S27x3.rowMajor i))) a1))

/-! ## The run -/

/-- The fold of the operations at the result buffer is `refTerm` of the two arguments' contents. -/
theorem out_eq (V : Valuation τ sig (Elt F)) :
    after ops V (main_v28 : DevRef τ sig) = refTerm (V (main_arg0 : DevRef τ sig)) (V (main_arg1 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- On every device, for any float values, from any memory with zero counters: every weakly fair execution of the
    program terminates with the result buffer at `refTerm` of the two arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v28).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference program's value at the extended reals.

  Read index by index at the ideal float values (a float an extended real, each operation its textbook one), the
  composed term of the reference's run is the masked displacement tensor of the specification: with `C` the cartesian
  positions (the coordinates times the cell) and `T` the 27 image translations (the literal shift table times the cell),
  the entry at (i, j, s, c) is `C j c + T s c - C i c` when the squared length of that displacement is below the cutoff
  word's value and (i, j, s) is not an atom paired with itself in the unshifted cell, and the fill word's value otherwise.

  The module reads each broadcast of the program at an index (the operand at the coordinates the broadcast keeps, 0 on
  the operand's unit axes), the sum over the component axis as a sum over three components, the comparison of the two
  index tensors as the bit of `i = j` (the indices are below 2³², so distinct indices are distinct words), the literal
  mask table as the bit of `s = 13`, and combines the bits. The two matrix products and the two float words are never
  evaluated.
-/
import proofs.«129882_j47519518163698_1_alg».proof.Proof.RefRun
import proofs.«129882_j47519518163698_1_alg».proof.Proof.Spec
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun
open Idealize.ShloMosaic Idealize.ShloMosaic.ValueIdx
open Cert.RadiusGraph

/-! ## The program's broadcasts read at an index -/

section Broadcasts
variable {α : Type}

/-- A tensor with one leading row, copied to 1024 rows, reads the one row. -/
theorem bcast_rows_apply (h : S1x1024x27x3.BroadcastsInDim S1024x1024x27x3 ![0, 1, 2, 3]) (x : S1x1024x27x3.Idx → α)
    (i j : Fin 1024) (s : Fin 27) (c : Fin 3) :
    broadcastInDim S1024x1024x27x3 ![0, 1, 2, 3] h x (ix4 i j s c) = x (ix4 (0 : Fin 1) j s c) :=
  broadcastInDim_apply _ h x _ _ fun a => match a with
    | ⟨0, _⟩ => rfl | ⟨1, _⟩ => rfl | ⟨2, _⟩ => rfl | ⟨3, _⟩ => rfl

/-- A tensor indexed by its first and last axes only, copied along the two middle axes. -/
theorem bcast_mid_apply (h : S1024x1x1x3.BroadcastsInDim S1024x1024x27x3 ![0, 1, 2, 3]) (x : S1024x1x1x3.Idx → α)
    (i j : Fin 1024) (s : Fin 27) (c : Fin 3) :
    broadcastInDim S1024x1024x27x3 ![0, 1, 2, 3] h x (ix4 i j s c) = x (ix4 i (0 : Fin 1) (0 : Fin 1) c) :=
  broadcastInDim_apply _ h x _ _ fun a => match a with
    | ⟨0, _⟩ => rfl | ⟨1, _⟩ => rfl | ⟨2, _⟩ => rfl | ⟨3, _⟩ => rfl

/-- A tensor with one image, copied to 27 images. -/
theorem bcast_images_apply (h : S1x1024x1x3.BroadcastsInDim S1x1024x27x3 ![0, 1, 2, 3]) (x : S1x1024x1x3.Idx → α)
    (j : Fin 1024) (s : Fin 27) (c : Fin 3) :
    broadcastInDim S1x1024x27x3 ![0, 1, 2, 3] h x (ix4 (0 : Fin 1) j s c) = x (ix4 (0 : Fin 1) j (0 : Fin 1) c) :=
  broadcastInDim_apply _ h x _ _ fun a => match a with
    | ⟨0, _⟩ => rfl | ⟨1, _⟩ => rfl | ⟨2, _⟩ => rfl | ⟨3, _⟩ => rfl

/-- A tensor with one atom, copied to 1024 atoms. -/
theorem bcast_atoms_apply (h : S1x1x27x3.BroadcastsInDim S1x1024x27x3 ![0, 1, 2, 3]) (x : S1x1x27x3.Idx → α)
    (j : Fin 1024) (s : Fin 27) (c : Fin 3) :
    broadcastInDim S1x1024x27x3 ![0, 1, 2, 3] h x (ix4 (0 : Fin 1) j s c) = x (ix4 (0 : Fin 1) (0 : Fin 1) s c) :=
  broadcastInDim_apply _ h x _ _ fun a => match a with
    | ⟨0, _⟩ => rfl | ⟨1, _⟩ => rfl | ⟨2, _⟩ => rfl | ⟨3, _⟩ => rfl

/-- The positions placed on axes 1 and 3 of a rank-4 tensor. -/
theorem bcast_cart13_apply (h : S1024x3.BroadcastsInDim S1x1024x1x3 ![1, 3]) (x : S1024x3.Idx → α) (j : Fin 1024) (c : Fin 3) :
    broadcastInDim S1x1024x1x3 ![1, 3] h x (ix4 (0 : Fin 1) j (0 : Fin 1) c) = x (ix2 j c) :=
  broadcastInDim_apply _ h x _ _ fun a => match a with
    | ⟨0, _⟩ => rfl | ⟨1, _⟩ => rfl

/-- The translations placed on axes 2 and 3 of a rank-4 tensor. -/
theorem bcast_shift23_apply (h : S27x3.BroadcastsInDim S1x1x27x3 ![2, 3]) (x : S27x3.Idx → α) (s : Fin 27) (c : Fin 3) :
    broadcastInDim S1x1x27x3 ![2, 3] h x (ix4 (0 : Fin 1) (0 : Fin 1) s c) = x (ix2 s c) :=
  broadcastInDim_apply _ h x _ _ fun a => match a with
    | ⟨0, _⟩ => rfl | ⟨1, _⟩ => rfl

/-- The positions placed on axes 0 and 3 of a rank-4 tensor. -/
theorem bcast_cart03_apply (h : S1024x3.BroadcastsInDim S1024x1x1x3 ![0, 3]) (x : S1024x3.Idx → α) (i : Fin 1024) (c : Fin 3) :
    broadcastInDim S1024x1x1x3 ![0, 3] h x (ix4 i (0 : Fin 1) (0 : Fin 1) c) = x (ix2 i c) :=
  broadcastInDim_apply _ h x _ _ fun a => match a with
    | ⟨0, _⟩ => rfl | ⟨1, _⟩ => rfl

/-- A matrix given a trailing unit axis. -/
theorem bcast_pair_unit_apply (h : S1024x1024.BroadcastsInDim S1024x1024x1 ![0, 1]) (x : S1024x1024.Idx → α) (i j : Fin 1024) :
    broadcastInDim S1024x1024x1 ![0, 1] h x (ix3 i j (0 : Fin 1)) = x (ix2 i j) :=
  broadcastInDim_apply _ h x _ _ fun a => match a with
    | ⟨0, _⟩ => rfl | ⟨1, _⟩ => rfl

/-- A tensor with one image, copied to 27 images (rank 3). -/
theorem bcast_pair_images_apply (h : S1024x1024x1.BroadcastsInDim S1024x1024x27 ![0, 1, 2]) (x : S1024x1024x1.Idx → α)
    (i j : Fin 1024) (s : Fin 27) :
    broadcastInDim S1024x1024x27 ![0, 1, 2] h x (ix3 i j s) = x (ix3 i j (0 : Fin 1)) :=
  broadcastInDim_apply _ h x _ _ fun a => match a with
    | ⟨0, _⟩ => rfl | ⟨1, _⟩ => rfl | ⟨2, _⟩ => rfl

/-- A vector over the images placed on axis 2 of a rank-3 tensor. -/
theorem bcast_table_apply (h : S27.BroadcastsInDim S1x1x27 ![2]) (x : S27.Idx → α) (s : Fin 27) :
    broadcastInDim S1x1x27 ![2] h x (ix3 (0 : Fin 1) (0 : Fin 1) s) = x (ix1 s) :=
  broadcastInDim_apply _ h x _ _ fun a => match a with
    | ⟨0, _⟩ => rfl

/-- A tensor over the images only, copied to every pair of atoms. -/
theorem bcast_table_pairs_apply (h : S1x1x27.BroadcastsInDim S1024x1024x27 ![0, 1, 2]) (x : S1x1x27.Idx → α)
    (i j : Fin 1024) (s : Fin 27) :
    broadcastInDim S1024x1024x27 ![0, 1, 2] h x (ix3 i j s) = x (ix3 (0 : Fin 1) (0 : Fin 1) s) :=
  broadcastInDim_apply _ h x _ _ fun a => match a with
    | ⟨0, _⟩ => rfl | ⟨1, _⟩ => rfl | ⟨2, _⟩ => rfl

/-- A rank-3 tensor given a trailing unit axis. -/
theorem bcast_triple_unit_apply (h : S1024x1024x27.BroadcastsInDim S1024x1024x27x1 ![0, 1, 2]) (x : S1024x1024x27.Idx → α)
    (i j : Fin 1024) (s : Fin 27) :
    broadcastInDim S1024x1024x27x1 ![0, 1, 2] h x (ix4 i j s (0 : Fin 1)) = x (ix3 i j s) :=
  broadcastInDim_apply _ h x _ _ fun a => match a with
    | ⟨0, _⟩ => rfl | ⟨1, _⟩ => rfl | ⟨2, _⟩ => rfl

/-- A tensor with one component, copied to the three components. -/
theorem bcast_comps_apply (h : S1024x1024x27x1.BroadcastsInDim S1024x1024x27x3 ![0, 1, 2, 3]) (x : S1024x1024x27x1.Idx → α)
    (i j : Fin 1024) (s : Fin 27) (c : Fin 3) :
    broadcastInDim S1024x1024x27x3 ![0, 1, 2, 3] h x (ix4 i j s c) = x (ix4 i j s (0 : Fin 1)) :=
  broadcastInDim_apply _ h x _ _ fun a => match a with
    | ⟨0, _⟩ => rfl | ⟨1, _⟩ => rfl | ⟨2, _⟩ => rfl | ⟨3, _⟩ => rfl

end Broadcasts

/-! ## The displacement -/

/-- The program's displacement tensor at (i, j, s, c) is the specification's displacement component. -/
theorem dispOf_apply (C : FVec Ideal S1024x3 .f32) (T : FVec Ideal S27x3 .f32) (i j : Fin 1024) (s : Fin 27) (c : Fin 3) :
    dispOf C T (ix4 i j s c) = disp C T i j s c := by
  unfold dispOf disp
  rw [subf_apply, bcast_rows_apply, addf_apply, bcast_images_apply, bcast_cart13_apply, bcast_atoms_apply,
    bcast_shift23_apply, bcast_mid_apply, bcast_cart03_apply]

/-! ## The squared length -/

/-- The component axis removed from the displacement tensor's shape leaves the shape of the squared lengths. -/
theorem reduces_d3 : S1024x1024x27x3.Reduces [3] S1024x1024x27 := by decide

/-- The index over (i, j, s) with component `k` inserted on the last axis is (i, j, s, k). -/
theorem lift_d3 (i j : Fin 1024) (s : Fin 27) (k : Fin 3) :
    reduces_d3.lift (ix3 i j s) k = ix4 i j s k := by
  funext a
  match a with
  | ⟨0, _⟩ => exact Fin.ext rfl
  | ⟨1, _⟩ => exact Fin.ext rfl
  | ⟨2, _⟩ => exact Fin.ext rfl
  | ⟨3, _⟩ => exact Fin.ext rfl

/-- The squared length at (i, j, s): the three squares of the components, added from zero. -/
theorem dist2Of_apply (D : FVec Ideal S1024x1024x27x3 .f32) (i j : Fin 1024) (s : Fin 27) :
    dist2Of D (ix3 i j s) = ∑ c : Fin 3, D (ix4 i j s c) * D (ix4 i j s c) := by
  unfold dist2Of
  rw [hostReduceAdd_apply, Ideal.hostReduceAdd_single _ reduces_d3, constant_apply, Ideal.ofBits_zero_f32, zero_add]
  show (∑ k : Fin 3, mulf D D (reduces_d3.lift (ix3 i j s) k)) = _
  exact Finset.sum_congr rfl fun k _ => by rw [lift_d3, mulf_apply]

/-! ## The integer side: the two bits of the self-pair mask -/

/-- Two atom indices are equal as 32-bit words exactly when they are equal: both are below 2³². -/
theorem ofNat_eq_iff (i j : Fin 1024) : BitVec.ofNat 32 i.val = BitVec.ofNat 32 j.val ↔ i = j := by
  constructor
  · intro h
    have e := congrArg BitVec.toNat h
    simp only [BitVec.toNat_ofNat] at e
    have hi := i.isLt
    have hj := j.isLt
    exact Fin.ext (by omega)
  · rintro rfl; rfl

/-- The comparison of the row index (plus the zero word) with the column index is the bit of `i = j`. -/
theorem eq_bit (i j : Fin 1024) :
    IntOp.cmpi .eq (IntOp.addi (BitVec.ofNat 32 i.val) 0#32) (BitVec.ofNat 32 j.val) = BitVec.ofBool (decide (i = j)) := by
  unfold IntOp.cmpi IntOp.addi
  rw [BitVec.add_zero]
  refine congrArg BitVec.ofBool ?_
  by_cases h : i = j
  · subst h; simp
  · have h' : ¬ BitVec.ofNat 32 i.val = BitVec.ofNat 32 j.val := fun e => h ((ofNat_eq_iff i j).1 e)
    simp [h, h']

/-- The literal mask table is set at image 13 only. -/
theorem lit1_bit (s : Fin 27) : lit1 (S27.rowMajor (ix1 s)) = BitVec.ofBool (decide (s = 13)) := by
  have key : ∀ t : Fin 27, lit1 t = BitVec.ofBool (decide (t = 13)) := by decide
  have e : S27.rowMajor (ix1 s) = s := Fin.ext (by rw [Shape.rowMajor_val_one])
  rw [e]
  exact key s

/-- Bits of decided propositions: `p and not q`. -/
theorem and_not_bit (p q : Prop) [Decidable p] [Decidable q] :
    IntOp.andi (BitVec.ofBool (decide p)) (~~~ BitVec.ofBool (decide q)) = BitVec.ofBool (decide (p ∧ ¬q)) := by
  by_cases hp : p <;> by_cases hq : q <;> simp [IntOp.andi, hp, hq]

/-- Bits of decided propositions: `p and q`. -/
theorem and_bit (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- The self-pair mask at (i, j, s) is the bit of `i = j and s = 13`. -/
theorem selfMask_apply (i j : Fin 1024) (s : Fin 27) :
    selfMask (ix3 i j s) = BitVec.ofBool (decide (i = j ∧ s = 13)) := by
  unfold selfMask
  show IntOp.andi _ _ = _
  rw [bcast_pair_images_apply, bcast_pair_unit_apply, bcast_table_pairs_apply, bcast_table_apply, lit1_bit]
  show IntOp.andi (IntOp.cmpi .eq (IntOp.addi (BitVec.ofNat 32 i.val) _) (BitVec.ofNat 32 j.val)) _ = _
  rw [broadcastInDim_scalar_apply]
  show IntOp.andi (IntOp.cmpi .eq (IntOp.addi (BitVec.ofNat 32 i.val) 0#32) (BitVec.ofNat 32 j.val)) _ = _
  rw [eq_bit, and_bit]

/-! ## The mask and the selection -/

/-- The edge mask at (i, j, s): the bit of "squared length below the cutoff word's value, and not a self pair in the
    unshifted cell". -/
theorem maskOf_apply (D : FVec Ideal S1024x1024x27x3 .f32) (i j : Fin 1024) (s : Fin 27) :
    maskOf D (ix3 i j s)
      = BitVec.ofBool (decide ((∑ c : Fin 3, D (ix4 i j s c) * D (ix4 i j s c)) < Ideal.ofBits .f32 0x41C80000#32
          ∧ ¬(i = j ∧ s = 13))) := by
  unfold maskOf
  show IntOp.andi (FloatOps.cmpf .olt (dist2Of D (ix3 i j s)) _) (~~~ selfMask (ix3 i j s)) = _
  rw [dist2Of_apply, broadcastInDim_scalar_apply, constant_apply, selfMask_apply]
  exact and_not_bit _ _

/-- The masked tensor at (i, j, s, c): the entry where the mask's proposition holds, the fill word's value elsewhere. -/
theorem maskedOf_apply (D : FVec Ideal S1024x1024x27x3 .f32) (i j : Fin 1024) (s : Fin 27) (c : Fin 3) :
    maskedOf D (ix4 i j s c)
      = if ((∑ c : Fin 3, D (ix4 i j s c) * D (ix4 i j s c)) < Ideal.ofBits .f32 0x41C80000#32 ∧ ¬(i = j ∧ s = 13))
        then D (ix4 i j s c) else Ideal.ofBits .f32 0x00000000#32 := by
  unfold maskedOf
  rw [select_apply, bcast_comps_apply, bcast_triple_unit_apply, maskOf_apply, broadcastInDim_scalar_apply, constant_apply,
    select_ofBool]

/-- The masked displacement tensor of positions `C` and translations `T` is the specification's tensor entry. -/
theorem maskedOf_dispOf_apply (C : FVec Ideal S1024x3 .f32) (T : FVec Ideal S27x3 .f32) (i j : Fin 1024) (s : Fin 27) (c : Fin 3) :
    maskedOf (dispOf C T) (ix4 i j s c)
      = cell (Ideal.ofBits .f32 0x41C80000#32) (Ideal.ofBits .f32 0x00000000#32) C T i j s c := by
  rw [maskedOf_apply]
  simp only [dispOf_apply]
  unfold cell
  by_cases h : IsEdge (Ideal.ofBits .f32 0x41C80000#32) C T i j s
  · rw [if_pos h]; exact if_pos h
  · rw [if_neg h]; exact if_neg h

/-! ## The value -/

/-- At the extended reals the run's composed term is the specification's tensor of the positions `a0 · a1` and the
    translations `shifts · a1`, at the cutoff word's and the fill word's values. -/
theorem refTerm_eq (a0 : FVec Ideal S1024x3 .f32) (a1 : FVec Ideal S3x3 .f32) :
    refTerm (F := Ideal) a0 a1
      = G (Ideal.ofBits .f32 0x41C80000#32) (Ideal.ofBits .f32 0x00000000#32)
          (Host.dotGeneral dot_S1024x3_S3x3_S1024x3_1_0_0_1_n_n none a0 a1)
          (Host.dotGeneral dot_S27x3_S3x3_S27x3_1_0_0_1_n_n none (fun i => FloatOps.ofBits .f32 (lit0 (S27x3.rowMajor i))) a1) := by
  funext y
  obtain ⟨i, j, s, c, rfl⟩ : ∃ (i j : Fin 1024) (s : Fin 27) (c : Fin 3), y = ix4 i j s c := ⟨_, _, _, _, eq_ix4 y⟩
  rw [G_ix4]
  unfold refTerm
  exact maskedOf_dispOf_apply _ _ i j s c

open Idealize.ShloMosaic.TcCoe Idealize.SL.Sem Idealize.ShloMosaic.StableHlo in
/-- On every device, at the extended reals, from any memory with zero counters: every weakly fair execution of the
    reference terminates with its result buffer at the specification's tensor of the two arguments' launch contents
    (positions `arg0 · arg1`, translations `shifts · arg1`) and both arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
          = G (Ideal.ofBits .f32 0x41C80000#32) (Ideal.ofBits .f32 0x00000000#32)
              (Host.dotGeneral (F := Ideal) (φ₁ := .f32) (φ₂ := .f32) dot_S1024x3_S3x3_S1024x3_1_0_0_1_n_n none
                (m ((c.tc : Thread nD τ).loc main_arg0)) (m ((c.tc : Thread nD τ).loc main_arg1)))
              (Host.dotGeneral (F := Ideal) (φ₁ := .f32) (φ₂ := .f32) dot_S27x3_S3x3_S27x3_1_0_0_1_n_n none
                (fun i => FloatOps.ofBits .f32 (lit0 (S27x3.rowMajor i))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refTerm_eq _ _), (h c).2⟩) (RefRun.run m ρ)

end Cert.ReferenceIdeal.RefValue

end
-- ==== Proof.lean ====
/-
  A periodic radius graph as a masked displacement tensor: for 1024 atoms with fractional coordinates `frac` in a cell
  `cell`, and the 27 images `s` of the cell shifted by {-1, 0, 1}³, entry (i, j, s, ·) is the displacement
  `C j + T s - C i` (`C = frac · cell` the positions, `T = shifts · cell` the image translations) when its squared
  length is below 25 and (i, j, s) is not an atom paired with itself in the unshifted cell, and 0 otherwise.

  The kernel tiles the (i, j) plane 8 × 8, forms each component as `(C j - C i) + T s` from a tile's rows of `C` and
  columns of `Cᵀ`, adds the three squares left to right, and writes the 81 = 27 · 3 (image, component) lanes of a tile one
  by one into a [1024, 1024, 81] array that a final view turns into [1024, 1024, 27, 3]. The reference broadcasts whole
  arrays, forms `(C j + T s) - C i`, and sums the squares over the last axis. On the extended reals both are ONE function
  of `C` and `T` (Proof/Spec.lean): addition there is commutative and associative and subtraction is addition of the
  negative, so the two groupings agree at every value and the precondition is never opened.

  The claims: the three programs run and keep their arguments (the kernel's frame twice, at the word level and at the
  ideal instance; the reference's run with its result dropped); the idealization rewrote nothing, so `preserves` is
  `True`; and at the ideal instance both programs end with their result at the same tensor `G` of the same positions
  and translations (Proof/KernelValue.lean, Proof/RefValue.lean).
-/
import proofs.«129882_j47519518163698_1_alg».proof.Defs
import proofs.«129882_j47519518163698_1_alg».proof.Proof.Gen.Kernel
import proofs.«129882_j47519518163698_1_alg».proof.Proof.Gen.KernelIdeal
import proofs.«129882_j47519518163698_1_alg».proof.Proof.Gen.ReferenceIdeal
import proofs.«129882_j47519518163698_1_alg».proof.Proof.Gen.Pre_finite_inputs
import proofs.«129882_j47519518163698_1_alg».proof.Proof.KernelFrame
import proofs.«129882_j47519518163698_1_alg».proof.Proof.KernelValue
import proofs.«129882_j47519518163698_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote no operation of the kernel program. -/
theorem preserves : Cert.preserves_Kernel_KernelIdeal := trivial

/-- At the ideal instance, from memories agreeing on `frac` and `cell`, both programs end with their result at the masked
    displacement tensor of `frac · cell` and `shifts · cell`: the same contractions of the same arguments on both sides. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
